-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64 .f32) (main_arg9 : FVec F S192x40 .f32) (main_arg10 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x40 .f32 := Host.absf main_arg9
  let main_cst_14 : FVec F S_ .f32 := constant S_ .f32 0x7F800000#32
  let main_v40 : FVec F S192x40 .f32 := broadcastInDim S192x40 ![] bcast_S_S192x40 main_cst_14
  let main_v41 : IVec S192x40 1 := cmpf .olt main_v39 main_v40
  let main_c_15 : IVec S_ 1 := constantI S_ 1 1#1
  let main_v42 : IVec S_ 1 := (fun x v => Host.reduce IntOp.andi x v reducesTo_S192x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S192x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S192x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S1x800000 : Shape := ⟨2, ![1, 800000]⟩
abbrev S800000x1 : Shape := ⟨2, ![800000, 1]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x64 : Shape := ⟨2, ![800000, 64]⟩
abbrev S1x64 : Shape := ⟨2, ![1, 64]⟩
abbrev S64x40 : Shape := ⟨2, ![64, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 78
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x40, .f32⟩
  | .hbm, ⟨10, _⟩ => ⟨S40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S800000x1, .f32⟩
  | .hbm, ⟨16, _⟩ => ⟨S50000x64, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .bf16⟩
  | .hbm, ⟨26, _⟩ => ⟨S800000x64, .f32⟩
  | .hbm, ⟨27, _⟩ => ⟨S800000x64, .f32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S1x64, .f32⟩
  | .hbm, ⟨34, _⟩ => ⟨S50000x64, .f32⟩
  | .hbm, ⟨35, _⟩ => ⟨S50000x64, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .bf16⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .bf16⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .bf16⟩
  | .hbm, ⟨64, _⟩ => ⟨S800000x64, .f32⟩
  | .hbm, ⟨65, _⟩ => ⟨S800000x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S64x40, .f32⟩
  | .hbm, ⟨74, _⟩ => ⟨S64x40, .f32⟩
  | .hbm, ⟨75, _⟩ => ⟨S64x40, .f32⟩
  | .hbm, ⟨76, _⟩ => ⟨S1x40, .f32⟩
  | .hbm, ⟨77, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .bf16⟩
  | .local _ .vmem, ⟨20, _⟩ => ⟨S5000x64, .bf16⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x40, .f32⟩
  | .local _ .vmem, ⟨33, _⟩ => ⟨S64x40, .f32⟩
  | .local _ .vmem, ⟨34, _⟩ => ⟨S64x40, .f32⟩
  | .local _ .vmem, ⟨35, _⟩ => ⟨S1x40, .f32⟩
  | .local _ .vmem, ⟨36, _⟩ => ⟨S5000x40, .f32⟩
  | .local _ .vmem, ⟨37, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem7_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x40 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x40 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S192x40_S64x40_0_0 : S192x40.Slices ![0, 0] S64x40
  slices_S192x40_S64x40_64_0 : S192x40.Slices ![64, 0] S64x40
  slices_S192x40_S64x40_128_0 : S192x40.Slices ![128, 0] S64x40
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .bf16 = 32 ∨ (Rect.block (s := S50000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x40.size a ≤ S64x40.size a
  hwx4_3 : ∀ i : grid4.Coords, EltTy.bits .f32 = 32 ∨ (Rect.block (s := S64x40) S64x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x40.size a ≤ S64x40.size a
  hwx4_4 : ∀ i : grid4.Coords, EltTy.bits .f32 = 32 ∨ (Rect.block (s := S64x40) S64x40.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x40.size a ≤ S64x40.size a
  hwx4_5 : ∀ i : grid4.Coords, EltTy.bits .f32 = 32 ∨ (Rect.block (s := S64x40) S64x40.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x40.size a ≤ S1x40.size a
  hwx4_6 : ∀ i : grid4.Coords, EltTy.bits .f32 = 32 ∨ (Rect.block (s := S1x40) S1x40.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x40.size a ≤ S50000x40.size a
  hwx4_7 : ∀ i : grid4.Coords, EltTy.bits .f32 = 32 ∨ (Rect.block (s := S50000x40) S5000x40.size (cc4_transform_7 i) (hinb4_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v20_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S64x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S64x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S64x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v54) S1x40.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v55) S5000x40.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S1x800000 : Shape := ⟨2, ![1, 800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x192 : Shape := ⟨2, ![50000, 192]⟩
abbrev S50000x40 : Shape := ⟨2, ![50000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x40, .f32⟩
  | .hbm, ⟨10, _⟩ => ⟨S40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x1, .f32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S1x64, .f32⟩
  | .hbm, ⟨33, _⟩ => ⟨S50000x64, .f32⟩
  | .hbm, ⟨34, _⟩ => ⟨S50000x64, .f32⟩
  | .hbm, ⟨35, _⟩ => ⟨S_, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S800000x1, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x1, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x192, .f32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_cst : Ref sig .tc := ⟨.hbm, 81, rfl⟩
abbrev main_call2_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x64_S50000x192_d1 : Shape.Concatenates [S50000x64, S50000x64, S50000x64] S50000x192 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x192_S192x40_S50000x40_1_0_0_1_n_n_wf : DotDims.WF S50000x192 S192x40 S50000x40 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x192_S192x40_S50000x40_1_0_0_1_n_n : DotDims S50000x192 S192x40 S50000x40 where
  lhsContracting := [1]
  rhsContracting := [0]
  lhsNonContracting := [0]
  rhsNonContracting := [1]
  lhsBatch := []
  rhsBatch := []
  wf := dot_S50000x192_S192x40_S50000x40_1_0_0_1_n_n_wf

class Facts : Prop extends Facts₀ where

variable [Facts]
-- ==== Proof.JKNet.lean ====
/-
  The network both programs compute, as one function of the argument arrays on the extended reals.

  A graph with 50000 nodes and 800000 weighted edges (source and destination node of each edge in the two rows of an
  integer array, a negative source id counted from the end).  One layer takes a table T of node rows [50000, 64],
  gathers for every edge the row of its source node, scales it by the edge's weight, and adds the scaled rows up at
  the edge's destination node (`edgeSum`); then the layer's bias is added to every node row and negative entries are
  replaced by zero (`biasRelu`).  Three layers follow one another, the table of each being the previous hidden state
  (the node features, for the first) times the layer's weight matrix.  The result joins the three hidden states side
  by side into [50000, 192] rows, multiplies by the [192, 40] output matrix and adds the output bias (`head`).

  The functions are spelt with the reference program's own operations, so that the reference's result is `jkOut` of
  its arguments by unfolding names (`reference_is_jkOut`).
-/
import proofs.«141563_j14697378087200_2_alg».proof.Proof.Gen.ReferenceIdeal.Read

noncomputable section

namespace Cert.JKNet

open Cert.ReferenceIdeal Cert.ReferenceIdeal.Gen Cert.ReferenceIdeal.Read Idealize.ShloMosaic

variable {F : FTy → Type} [FloatOps F]

/-- The zero array [50000, 64] (where an edge sum starts, and what a hidden state is compared with). -/
def zeros : (⟨S50000x64, .f32⟩ : BufTy).Contents (Elt F) :=
  broadcastInDim S50000x64 ![] bcast_S_S50000x64 (constant S_ .f32 0x00000000#32)

/-- The edges' source ids as a column [800000, 1], a negative id `s` read as `s + 50000`. -/
def srcCol (x1 : (⟨S2x800000, .i32⟩ : BufTy).Contents (Elt F)) : (⟨S800000x1, .i32⟩ : BufTy).Contents (Elt F) :=
  val_main_v10 (F := F) x1

/-- The edges' destination ids as a column [800000, 1]. -/
def dstCol (x1 : (⟨S2x800000, .i32⟩ : BufTy).Contents (Elt F)) : (⟨S800000x1, .i32⟩ : BufTy).Contents (Elt F) :=
  val_main_v16 (F := F) x1

/-- The edges' weights laid along the 64 features: entry (e, j) is the weight of edge e. -/
def weightMat (x2 : (⟨S800000, .f32⟩ : BufTy).Contents (Elt F)) : (⟨S800000x64, .f32⟩ : BufTy).Contents (Elt F) :=
  val_main_v13 (F := F) x2

/-- One layer's message passing: node n receives the sum, over the edges that end at n, of the edge's weight times
    the table's row at the edge's source. -/
def edgeSum (x1 : (⟨S2x800000, .i32⟩ : BufTy).Contents (Elt F)) (x2 : (⟨S800000, .f32⟩ : BufTy).Contents (Elt F))
    (T : (⟨S50000x64, .f32⟩ : BufTy).Contents (Elt F)) : (⟨S50000x64, .f32⟩ : BufTy).Contents (Elt F) :=
  Host.scatterAdd scatter_S50000x64_S800000x1_S800000x64_1_0_0_1 (zeros (F := F)) (dstCol x1)
    (mulf (Host.gather gather_S50000x64_S800000x1_S800000x64_1_0_n_n_0_1_164 T (srcCol x1)) (weightMat x2))

/-- A bias given as one row [1, 64], added to every node row, then the maximum with zero. -/
def biasReluRow (A : (⟨S50000x64, .f32⟩ : BufTy).Contents (Elt F)) (bR : (⟨S1x64, .f32⟩ : BufTy).Contents (Elt F)) :
    (⟨S50000x64, .f32⟩ : BufTy).Contents (Elt F) :=
  maximumf (addf A (broadcastInDim S50000x64 ![0, 1] bcast_S1x64_S50000x64_0_1 bR)) (zeros (F := F))

/-- The same for a bias vector [64]. -/
def biasRelu (A : (⟨S50000x64, .f32⟩ : BufTy).Contents (Elt F)) (b : (⟨S64, .f32⟩ : BufTy).Contents (Elt F)) :
    (⟨S50000x64, .f32⟩ : BufTy).Contents (Elt F) :=
  biasReluRow A (broadcastInDim S1x64 ![1] bcast_S64_S1x64_1 b)

/-- The first layer's table: the node features times the first weight matrix. -/
def table1 (x0 : (⟨S50000x128, .f32⟩ : BufTy).Contents (Elt F)) (x3 : (⟨S128x64, .f32⟩ : BufTy).Contents (Elt F)) :
    (⟨S50000x64, .f32⟩ : BufTy).Contents (Elt F) :=
  Host.dotGeneral dot_S50000x128_S128x64_S50000x64_1_0_0_1_n_n none x0 x3

/-- A later layer's table: the previous hidden state times the layer's weight matrix. -/
def table (h : (⟨S50000x64, .f32⟩ : BufTy).Contents (Elt F)) (W : (⟨S64x64, .f32⟩ : BufTy).Contents (Elt F)) :
    (⟨S50000x64, .f32⟩ : BufTy).Contents (Elt F) :=
  Host.dotGeneral dot_S50000x64_S64x64_S50000x64_1_0_0_1_n_n none h W

/-- The first hidden state. -/
def hidden1 (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x64, .f32⟩ : BufTy).Contents (Elt F))
    (x4 : (⟨S64, .f32⟩ : BufTy).Contents (Elt F)) : (⟨S50000x64, .f32⟩ : BufTy).Contents (Elt F) :=
  biasRelu (edgeSum x1 x2 (table1 x0 x3)) x4

/-- A later hidden state from the previous one `h`. -/
def hiddenNext (x1 : (⟨S2x800000, .i32⟩ : BufTy).Contents (Elt F)) (x2 : (⟨S800000, .f32⟩ : BufTy).Contents (Elt F))
    (h : (⟨S50000x64, .f32⟩ : BufTy).Contents (Elt F)) (W : (⟨S64x64, .f32⟩ : BufTy).Contents (Elt F))
    (b : (⟨S64, .f32⟩ : BufTy).Contents (Elt F)) : (⟨S50000x64, .f32⟩ : BufTy).Contents (Elt F) :=
  biasRelu (edgeSum x1 x2 (table h W)) b

/-- The output layer on the three hidden states joined side by side. -/
def head (h1 h2 h3 : (⟨S50000x64, .f32⟩ : BufTy).Contents (Elt F)) (x9 : (⟨S192x40, .f32⟩ : BufTy).Contents (Elt F))
    (x10 : (⟨S40, .f32⟩ : BufTy).Contents (Elt F)) : (⟨S50000x40, .f32⟩ : BufTy).Contents (Elt F) :=
  addf (Host.dotGeneral dot_S50000x192_S192x40_S50000x40_1_0_0_1_n_n none
      (concatenate S50000x192 1 [⟨S50000x64, h1⟩, ⟨S50000x64, h2⟩, ⟨S50000x64, h3⟩] concatenates_S50000x64_S50000x64_S50000x64_S50000x192_d1) x9)
    (broadcastInDim S50000x40 ![0, 1] bcast_S1x40_S50000x40_0_1 (broadcastInDim S1x40 ![1] bcast_S40_S1x40_1 x10))

/-- The whole network. -/
def jkOut (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F))
    (x6 : (⟨S64, .f32⟩ : BufTy).Contents (Elt F)) (x7 : (⟨S64x64, .f32⟩ : BufTy).Contents (Elt F))
    (x8 : (⟨S64, .f32⟩ : BufTy).Contents (Elt F)) (x9 : (⟨S192x40, .f32⟩ : BufTy).Contents (Elt F))
    (x10 : (⟨S40, .f32⟩ : BufTy).Contents (Elt F)) : (⟨S50000x40, .f32⟩ : BufTy).Contents (Elt F) :=
  head (hidden1 x0 x1 x2 x3 x4)
    (hiddenNext x1 x2 (hidden1 x0 x1 x2 x3 x4) x5 x6)
    (hiddenNext x1 x2 (hiddenNext x1 x2 (hidden1 x0 x1 x2 x3 x4) x5 x6) x7 x8) x9 x10

/-- The reference's result, read stage by stage, is the network of its arguments: every stage is one of the
    operations above on the stages before it. -/
theorem reference_is_jkOut (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F))
    (x6 : (⟨S64, .f32⟩ : BufTy).Contents (Elt F)) (x7 : (⟨S64x64, .f32⟩ : BufTy).Contents (Elt F))
    (x8 : (⟨S64, .f32⟩ : BufTy).Contents (Elt F)) (x9 : (⟨S192x40, .f32⟩ : BufTy).Contents (Elt F))
    (x10 : (⟨S40, .f32⟩ : BufTy).Contents (Elt F)) :
    val_main_v62 (F := F) x0 x1 x2 x3 x4 x5 x6 x7 x8 x9 x10 = jkOut x0 x1 x2 x3 x4 x5 x6 x7 x8 x9 x10 := rfl

end Cert.JKNet

end
-- ==== Proof.RunValue.lean ====
/-
  The idealized kernel's run, with the result array named.

  The program is five kernel regions among stretches of host operations.  Its generated frame follows the buffer
  contents through the program as a fold: from the launch memory, a host stretch applies its operations
  (the next contents are the operations' results over the previous ones), and a region replaces its windows' arrays by
  what its grid points' write-backs leave and keeps every other buffer.  The last contents of that fold are the final
  memory at every buffer that is not scoped.  Here the same launch theorem is stated with the result buffer kept in
  the post: after every weakly fair execution the result array holds the fold's last contents at the result buffer,
  and the eleven argument arrays are as launched.
-/
import proofs.«141563_j14697378087200_2_alg».proof.Proof.Patched.KernelIdeal.Frame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that is not scoped at
    the last contents of the fold through the program. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run with the result array named: it ends holding the fold's last contents at the result buffer, and the
    argument arrays are as launched. -/
theorem run_result : θ_run defs (onTc (τ := τ) (main (F := F))) ⟨m, fun _ => 0, ρ⟩ (fun r => ∀ c : Dev nD,
      r.2.mem ((c.tc : Thread nD τ).loc main_v55) = W10 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v55 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)
    (run_fold m ρ)

end Cert.KernelIdeal.RunValue

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«141563_j14697378087200_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.JKNetReads.lean ====
/-
  The network's operations read at an index, on the extended reals.

  A node row of a hidden state at (i, q) is the larger of zero and the edge sum at (i, q) plus the bias at q; the
  next layer's table at (i, q) is the sum over k of the hidden state at (i, k) times the weight at (k, q); and the
  output at (i, j) is the sum over the 192 joined features, which splits into the three hidden states' sums against
  rows 0–63, 64–127 and 128–191 of the output matrix, plus the output bias at j.  Splitting a finite sum into
  consecutive ranges only regroups it, so no entry has to be finite.
-/
import proofs.«141563_j14697378087200_2_alg».proof.Proof.JKNet
import proofs.«141563_j14697378087200_2_alg».proof.Proof.LibPlainDot
import proofs.«141563_j14697378087200_2_alg».proof.Proof.LibHostReads
import Idealize.ShloMosaic.Lib.Pipeline.Value
import Idealize.ShloMosaic.Lib.ValueIdx
import Idealize.ShloMosaic.Lib.ValueLayout

set_option maxRecDepth 16384

noncomputable section

open scoped BigOperators

namespace Cert.JKNet

open Cert.ReferenceIdeal Cert.ReferenceIdeal.Gen Idealize.ShloMosaic Idealize.ShloMosaic.ValueIdx Idealize.ShloMosaic.PlainDot Idealize.ShloMosaic.HostReads

/-- The zero array holds the zero word's value everywhere. -/
theorem zeros_apply (i : S50000x64.Idx) : zeros (F := Ideal) i = Ideal.ofBits .f32 0x00000000#32 := by
  unfold zeros
  exact broadcastInDim_apply _ _ _ i (fun a => a.elim0) (fun a => a.elim0)

/-- A hidden state at (i, q): the larger of zero and the edge sum plus the bias row's entry q. -/
theorem biasReluRow_apply (A : (⟨S50000x64, .f32⟩ : BufTy).Contents (Elt Ideal)) (bR : (⟨S1x64, .f32⟩ : BufTy).Contents (Elt Ideal))
    (i : Fin 50000) (q : Fin 64) :
    biasReluRow A bR (ix2 i q) = max (A (ix2 i q) + bR (ix2 (0 : Fin 1) q)) (Ideal.ofBits .f32 0x00000000#32) := by
  unfold biasReluRow
  rw [maximumf_apply, addf_apply, zeros_apply, bcast_row_apply]

/-- A later layer's table at (i, q): the sum over k of the hidden state at (i, k) times the weight at (k, q). -/
theorem table_apply (h : (⟨S50000x64, .f32⟩ : BufTy).Contents (Elt Ideal)) (W : (⟨S64x64, .f32⟩ : BufTy).Contents (Elt Ideal))
    (i : Fin 50000) (q : Fin 64) : table h W (ix2 i q) = ∑ k : Fin 64, h (ix2 i k) * W (ix2 k q) :=
  plainDot_apply (M := 50000) (K := 64) (N := 64) none h W i q

/-- The first layer's table at (i, q): the sum over k of the feature at (i, k) times the weight at (k, q). -/
theorem table1_apply (x0 : (⟨S50000x128, .f32⟩ : BufTy).Contents (Elt Ideal)) (x3 : (⟨S128x64, .f32⟩ : BufTy).Contents (Elt Ideal))
    (i : Fin 50000) (q : Fin 64) : table1 x0 x3 (ix2 i q) = ∑ k : Fin 128, x0 (ix2 i k) * x3 (ix2 k q) :=
  plainDot_apply (M := 50000) (K := 128) (N := 64) none x0 x3 i q

/-- A [64] vector laid as one row is the vector reshaped to one row. -/
theorem rowOf_eq (b : (⟨S64, .f32⟩ : BufTy).Contents (Elt Ideal)) (h : S64.ShapeCasts S1x64) :
    shapeCast S1x64 b h = broadcastInDim S1x64 ![1] bcast_S64_S1x64_1 b := by
  funext y
  obtain ⟨u, q, rfl⟩ : ∃ (u : Fin 1) (q : Fin 64), y = ix2 u q := ⟨y 0, y 1, eq_ix2 y⟩
  rw [shapeCast_a_1a_apply, bcast_toRow_apply]

/-- The same for the output bias [40]. -/
theorem rowOf40_eq (b : (⟨S40, .f32⟩ : BufTy).Contents (Elt Ideal)) (h : S40.ShapeCasts S1x40) :
    shapeCast S1x40 b h = broadcastInDim S1x40 ![1] bcast_S40_S1x40_1 b := by
  funext y
  obtain ⟨u, q, rfl⟩ : ∃ (u : Fin 1) (q : Fin 40), y = ix2 u q := ⟨y 0, y 1, eq_ix2 y⟩
  rw [shapeCast_a_1a_apply, bcast_toRow_apply]

/-- A sum over 192 consecutive positions is the sum of its three thirds. -/
theorem sum_thirds {M : Type} [AddCommMonoid M] (f : Fin 192 → M) :
    ∑ k : Fin 192, f k
      = (∑ k : Fin 64, f ⟨k.val, by omega⟩ + ∑ k : Fin 64, f ⟨64 + k.val, by omega⟩) + ∑ k : Fin 64, f ⟨128 + k.val, by omega⟩ := by
  have e : ∑ k : Fin 192, f k = ∑ k : Fin (64 + 64 + 64), f ⟨k.val, by have := k.isLt; omega⟩ :=
    (Fintype.sum_equiv (finCongr (by norm_num : 64 + 64 + 64 = 192)) _ _ (fun k => rfl)).symm
  rw [e, Fin.sum_univ_add, Fin.sum_univ_add]
  rfl

/-- The joined hidden states [50000, 192] at (i, k), for k in the first, second and third range of 64. -/
theorem joined_first (h1 h2 h3 : (⟨S50000x64, .f32⟩ : BufTy).Contents (Elt Ideal)) (i : Fin 50000) (k : Fin 64) :
    concatenate S50000x192 1 [⟨S50000x64, h1⟩, ⟨S50000x64, h2⟩, ⟨S50000x64, h3⟩] concatenates_S50000x64_S50000x64_S50000x64_S50000x192_d1
      (ix2 i (⟨k.val, by omega⟩ : Fin 192)) = h1 (ix2 i k) :=
  concatenate_apply_piece (t := S50000x192) (1 : Fin 2) [⟨S50000x64, h1⟩, ⟨S50000x64, h2⟩, ⟨S50000x64, h3⟩] _ _ 0 (by simp) S50000x64 h1 rfl rfl 0 rfl (ix2 i k)
    (fun b hb => by
      match b with
      | ⟨0, _⟩ => rfl
      | ⟨1, _⟩ => exact absurd rfl hb)
    (Nat.zero_add _)

theorem joined_second (h1 h2 h3 : (⟨S50000x64, .f32⟩ : BufTy).Contents (Elt Ideal)) (i : Fin 50000) (k : Fin 64) :
    concatenate S50000x192 1 [⟨S50000x64, h1⟩, ⟨S50000x64, h2⟩, ⟨S50000x64, h3⟩] concatenates_S50000x64_S50000x64_S50000x64_S50000x192_d1
      (ix2 i (⟨64 + k.val, by omega⟩ : Fin 192)) = h2 (ix2 i k) :=
  concatenate_apply_piece (t := S50000x192) (1 : Fin 2) [⟨S50000x64, h1⟩, ⟨S50000x64, h2⟩, ⟨S50000x64, h3⟩] _ _ 1 (by simp) S50000x64 h2 rfl rfl 64 rfl (ix2 i k)
    (fun b hb => by
      match b with
      | ⟨0, _⟩ => rfl
      | ⟨1, _⟩ => exact absurd rfl hb)
    rfl

theorem joined_third (h1 h2 h3 : (⟨S50000x64, .f32⟩ : BufTy).Contents (Elt Ideal)) (i : Fin 50000) (k : Fin 64) :
    concatenate S50000x192 1 [⟨S50000x64, h1⟩, ⟨S50000x64, h2⟩, ⟨S50000x64, h3⟩] concatenates_S50000x64_S50000x64_S50000x64_S50000x192_d1
      (ix2 i (⟨128 + k.val, by omega⟩ : Fin 192)) = h3 (ix2 i k) :=
  concatenate_apply_piece (t := S50000x192) (1 : Fin 2) [⟨S50000x64, h1⟩, ⟨S50000x64, h2⟩, ⟨S50000x64, h3⟩] _ _ 2 (by simp) S50000x64 h3 rfl rfl 128 rfl (ix2 i k)
    (fun b hb => by
      match b with
      | ⟨0, _⟩ => rfl
      | ⟨1, _⟩ => exact absurd rfl hb)
    rfl

/-- The output at (i, j): the three hidden states' sums against the three row ranges of the output matrix, plus the
    output bias. -/
theorem head_apply (h1 h2 h3 : (⟨S50000x64, .f32⟩ : BufTy).Contents (Elt Ideal)) (x9 : (⟨S192x40, .f32⟩ : BufTy).Contents (Elt Ideal))
    (x10 : (⟨S40, .f32⟩ : BufTy).Contents (Elt Ideal)) (i : Fin 50000) (j : Fin 40) :
    head h1 h2 h3 x9 x10 (ix2 i j)
      = ((∑ k : Fin 64, h1 (ix2 i k) * x9 (ix2 (⟨k.val, by omega⟩ : Fin 192) j)
          + ∑ k : Fin 64, h2 (ix2 i k) * x9 (ix2 (⟨64 + k.val, by omega⟩ : Fin 192) j))
          + ∑ k : Fin 64, h3 (ix2 i k) * x9 (ix2 (⟨128 + k.val, by omega⟩ : Fin 192) j))
        + x10 (ix1 j) := by
  unfold head
  rw [addf_apply, bcast_row_apply, bcast_toRow_apply]
  refine congrArg (· + x10 (ix1 j)) ?_
  refine (plainDot_apply (M := 50000) (K := 192) (N := 40) none _ x9 i j).trans ?_
  rw [sum_thirds]
  refine congrArg₂ (· + ·) (congrArg₂ (· + ·) (Finset.sum_congr rfl fun k _ => ?_) (Finset.sum_congr rfl fun k _ => ?_))
    (Finset.sum_congr rfl fun k _ => ?_)
  · exact congrArg (· * x9 (ix2 (⟨k.val, by omega⟩ : Fin 192) j)) (joined_first h1 h2 h3 i k)
  · exact congrArg (· * x9 (ix2 (⟨64 + k.val, by omega⟩ : Fin 192) j)) (joined_second h1 h2 h3 i k)
  · exact congrArg (· * x9 (ix2 (⟨128 + k.val, by omega⟩ : Fin 192) j)) (joined_third h1 h2 h3 i k)

end Cert.JKNet

end
-- ==== Proof.Region0.lean ====
/-
  The first kernel region: node features times the first weight matrix.

  The region runs over ten grid points.  Point t holds rows 5000 t … 5000 t + 4999 of the features [50000, 128] and the
  whole weight matrix [128, 64], and writes back rows 5000 t … 5000 t + 4999 of the product [50000, 64] (in a shorter
  float format, which on the extended reals changes nothing).  Entry (p, q) of what point t computes is the sum over k
  of feature (5000 t + p, k) times weight (k, q): entry (5000 t + p, q) of the whole product.  The ten row blocks
  cover the array, so after the region the array is the whole product (`final`).
-/
import proofs.«141563_j14697378087200_2_alg».proof.Proof.Patched.KernelIdeal.Frame
import Idealize.ShloMosaic.Lib.Pipeline.Value
import Idealize.ShloMosaic.Lib.ValueIdx
import proofs.«141563_j14697378087200_2_alg».proof.Proof.LibPlainMatmul
import proofs.«141563_j14697378087200_2_alg».proof.Proof.LibPlainDot

set_option maxRecDepth 16384

noncomputable section

namespace Cert.KernelIdeal.Region0

open Cert.KernelIdeal Cert.KernelIdeal.Gen Cert.KernelIdeal.GenP Idealize.ShloMosaic Idealize.ShloMosaic.TcCoe Idealize.SL.Sem
open Idealize.ShloMosaic.ValueIdx Idealize.ShloMosaic.PlainMatmul Idealize.ShloMosaic.PlainDot
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the result window move with the point along the
    rows, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The whole product [50000, 64] of two arrays. -/
def prod (X : S50000x128.Idx → EReal) (W : S128x64.Idx → EReal) : S50000x64.Idx → EReal :=
  Host.dotGeneral (F := Ideal) (φ₁ := .f32) (φ₂ := .f32) (DotDims.plain 50000 128 64) none X W

/-- What a point computes, at (p, q): the sum over k of its feature block at (p, k) times the weights at (k, q). -/
theorem pay_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact plainMatmul_apply (M := 5000) (K := 128) (N := 64) none (truncf .bf16 x0 bitsLt_bf16_f32) (truncf .bf16 x1 bitsLt_bf16_f32) p q

/-- Point t's feature block at (p, k) is the features at (5000 t + p, k). -/
theorem features_apply (c : Dev nD) (t : Fin cfg0.N) (p : Fin 5000) (k : Fin 128) (i : Fin 50000) (hi : i.val = 5000 * t.val + p.val) :
    iblk0 V c 0 t (ix2 p k) = V c main_arg0 (ix2 i k) := by
  obtain ⟨e0, e1, -, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = i.val; rw [e0, hi]; omega
  | ⟨1, _⟩ => show win0_0.index t (1 : Fin 2) * 128 + 1 * k.val = k.val; rw [e1]; omega

/-- Point t's weight block is the weight matrix. -/
theorem weights_apply (c : Dev nD) (t : Fin cfg0.N) (k : Fin 128) (q : Fin 64) :
    iblk0 V c 1 t (ix2 k q) = V c main_arg3 (ix2 k q) := by
  obtain ⟨-, -, e2, e3, -, -, -⟩ := idx_facts t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Point t's result block, entry (p, q), sits at (5000 t + p, q) of the array. -/
theorem out_emb (t : Fin cfg0.N) (p : Fin 5000) (q : Fin 64) (i : Fin 50000) (hi : i.val = 5000 * t.val + p.val) :
    ((cfg0.win 2).blk t).view.emb (ix2 p q) = (ix2 i q : S50000x64.Idx) := by
  obtain ⟨-, -, -, -, e4, e5, -⟩ := idx_facts t
  funext a
  apply Fin.ext
  match a with
  | ⟨0, _⟩ => show win0_2.index t (0 : Fin 2) * 5000 + 1 * p.val = i.val; rw [e4, hi]; omega
  | ⟨1, _⟩ => show win0_2.index t (1 : Fin 2) * 64 + 1 * q.val = q.val; rw [e5]; omega

/-- What point t writes back is block t of the whole product of the arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  refine funext fun (j : S5000x64.Idx) => ?_
  obtain ⟨p, q, rfl⟩ : ∃ (p : Fin 5000) (q : Fin 64), j = ix2 p q := ⟨j 0, j 1, eq_ix2 j⟩
  obtain ⟨-, -, -, -, -, -, ht⟩ := idx_facts t
  have hp := p.isLt
  let i : Fin 50000 := ⟨5000 * t.val + p.val, by omega⟩
  show k0_pay1 (iblk0 V c 0 t) (iblk0 V c 1 t) (ix2 p q)
    = prod (V c main_arg0) (V c main_arg3) (((cfg0.win 2).blk t).view.emb (ix2 p q))
  rw [pay_apply, out_emb t p q i rfl]
  unfold prod
  rw [plainDot_apply]
  refine Finset.sum_congr rfl fun k _ => ?_
  rw [features_apply V c t p k i rfl, weights_apply V c t k q]

/-- An index of the array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v5).slice (win0_2.rect t)).set ↔ _
  rw [View.set_slice_whole, Rect.mem_set_unit]
  exact Iff.rfl

/-- Every block of rows is some point's. -/
theorem idx_onto : ∀ (r : Fin 10), ∃ t : Fin cfg0.N, win0_2.index t = ![r.val, 0] :=
  (by decide +kernel : ∀ (r : Fin 10), ∃ t : Fin grid0.N, win0_2.index t = ![r.val, 0])

/-- Row i is in the block of point i / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its result array is the whole product of the features and the weights as the region found them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Region1.lean ====
/-
  Kernel region 1 (of regions 0–4): bias, rectifier, and the next layer's table.

  The region runs over ten grid points.  Point t holds rows 5000 t … 5000 t + 4999 of an edge sum [50000, 64], the layer's
  bias as one row [1, 64] and the next layer's weight matrix [64, 64].  It writes back two row blocks: the hidden
  state (entry (p, q): the larger of zero and the edge sum at (5000 t + p, q) plus the bias at q), and the hidden
  state's block times the weight matrix (entry (p, q): the sum over k of the hidden state at (5000 t + p, k) times
  the weight at (k, q)).  Both are the corresponding rows of the whole-array functions, and the ten blocks cover
  each array (`final_hidden`, `final_table`).
-/
import proofs.«141563_j14697378087200_2_alg».proof.Proof.Patched.KernelIdeal.Frame
import Idealize.ShloMosaic.Lib.Pipeline.Value
import Idealize.ShloMosaic.Lib.ValueIdx
import Idealize.ShloMosaic.Lib.ValueLayout
import proofs.«141563_j14697378087200_2_alg».proof.Proof.LibPlainMatmul
import proofs.«141563_j14697378087200_2_alg».proof.Proof.JKNetReads

set_option maxRecDepth 16384

noncomputable section

open scoped BigOperators

namespace Cert.KernelIdeal.Region1

open Cert.KernelIdeal Cert.KernelIdeal.Gen Cert.KernelIdeal.GenP Idealize.ShloMosaic Idealize.ShloMosaic.TcCoe Idealize.SL.Sem
open Idealize.ShloMosaic.ValueIdx Idealize.ShloMosaic.PlainMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem point_lt : ∀ t : Fin cfg1.N, t.val < 10 := (by decide +kernel : ∀ t : Fin grid1.N, _)

theorem rows_w0 : ∀ t : Fin cfg1.N, win1_0.index t (0 : Fin 2) = t.val ∧ win1_0.index t (1 : Fin 2) = 0 :=
  (by decide +kernel : ∀ t : Fin grid1.N, _)

theorem fixed_w1 : ∀ t : Fin cfg1.N, win1_1.index t (0 : Fin 2) = 0 ∧ win1_1.index t (1 : Fin 2) = 0 :=
  (by decide +kernel : ∀ t : Fin grid1.N, _)

theorem fixed_w2 : ∀ t : Fin cfg1.N, win1_2.index t (0 : Fin 2) = 0 ∧ win1_2.index t (1 : Fin 2) = 0 :=
  (by decide +kernel : ∀ t : Fin grid1.N, _)

theorem rows_w3 : ∀ t : Fin cfg1.N, win1_3.index t (0 : Fin 2) = t.val ∧ win1_3.index t (1 : Fin 2) = 0 :=
  (by decide +kernel : ∀ t : Fin grid1.N, _)

theorem rows_w4 : ∀ t : Fin cfg1.N, win1_4.index t (0 : Fin 2) = t.val ∧ win1_4.index t (1 : Fin 2) = 0 :=
  (by decide +kernel : ∀ t : Fin grid1.N, _)

/-- Point t's edge-sum block at (p, k) is the edge sum at (5000 t + p, k). -/
theorem edge_apply (c : Dev nD) (t : Fin cfg1.N) (p : Fin 5000) (k : Fin 64) (i : Fin 50000) (hi : i.val = 5000 * t.val + p.val) :
    iblk1 V c 0 t (ix2 p k) = V c main_v18 (ix2 i k) := by
  obtain ⟨e0, e1⟩ := rows_w0 t
  unfold iblk1
  rw [View.read_apply]
  show V c main_v18 _ = V c main_v18 _
  refine congrArg (V c main_v18) ?_
  funext a
  apply Fin.ext
  match a with
  | ⟨0, _⟩ => show win1_0.index t (0 : Fin 2) * 5000 + 1 * p.val = i.val; rw [e0, hi]; omega
  | ⟨1, _⟩ => show win1_0.index t (1 : Fin 2) * 64 + 1 * k.val = k.val; rw [e1]; omega

/-- Point t's bias block is the bias row. -/
theorem bias_apply (c : Dev nD) (t : Fin cfg1.N) (a : Fin 1) (b : Fin 64) :
    iblk1 V c 1 t (ix2 a b) = V c main_v19 (ix2 a b) := by
  obtain ⟨e0, e1⟩ := fixed_w1 t
  unfold iblk1
  rw [View.read_apply]
  show V c main_v19 _ = V c main_v19 _
  refine congrArg (V c main_v19) ?_
  funext d
  apply Fin.ext
  match d with
  | ⟨0, _⟩ => show win1_1.index t (0 : Fin 2) * 1 + 1 * a.val = a.val; rw [e0]; omega
  | ⟨1, _⟩ => show win1_1.index t (1 : Fin 2) * 64 + 1 * b.val = b.val; rw [e1]; omega

/-- Point t's weight block is the weight matrix. -/
theorem weight_apply (c : Dev nD) (t : Fin cfg1.N) (a : Fin 64) (b : Fin 64) :
    iblk1 V c 2 t (ix2 a b) = V c main_arg5 (ix2 a b) := by
  obtain ⟨e0, e1⟩ := fixed_w2 t
  unfold iblk1
  rw [View.read_apply]
  show V c main_arg5 _ = V c main_arg5 _
  refine congrArg (V c main_arg5) ?_
  funext d
  apply Fin.ext
  match d with
  | ⟨0, _⟩ => show win1_2.index t (0 : Fin 2) * 64 + 1 * a.val = a.val; rw [e0]; omega
  | ⟨1, _⟩ => show win1_2.index t (1 : Fin 2) * 64 + 1 * b.val = b.val; rw [e1]; omega

/-- The body's first stored value at (p, q): the larger of zero and the block's entry plus the bias row's entry q. -/
theorem relu_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S5000x64 x1 broadcasts_S1x64_S5000x64 (ix2 p q)) _ = _
  rw [broadcastTo_1b_ab_apply]
  rfl

/-- The body's second stored value at (p, q): the sum over k of the first at (p, k) times the weight block at (k, q). -/
theorem lin_apply (x0 : Vec Ideal S5000x64 .f32) (x1 : Vec Ideal S1x64 .f32) (x2 : Vec Ideal S64x64 .f32) (p : Fin 5000) (q : Fin 64) :
    k1_pay2 x0 x1 x2 (ix2 p q) = ∑ k : Fin 64, k1_pay1 x0 x1 (ix2 p k) * x2 (ix2 k q) := by
  unfold k1_pay2
  exact plainMatmul_apply (M := 5000) (K := 64) (N := 64) none (truncf .bf16 (k1_pay1 x0 x1) bitsLt_bf16_f32) (truncf .bf16 x2 bitsLt_bf16_f32) p q

/-- Entry (p, q) of point t's block of result window 3 sits at (5000 t + p, q) of its array. -/
theorem out3_emb (t : Fin cfg1.N) (p : Fin 5000) (q : Fin 64) (i : Fin 50000) (hi : i.val = 5000 * t.val + p.val) :
    ((cfg1.win 3).blk t).view.emb (ix2 p q) = (ix2 i q : S50000x64.Idx) := by
  obtain ⟨e0, e1⟩ := rows_w3 t
  funext a
  apply Fin.ext
  match a with
  | ⟨0, _⟩ => show win1_3.index t (0 : Fin 2) * 5000 + 1 * p.val = i.val; rw [e0, hi]; omega
  | ⟨1, _⟩ => show win1_3.index t (1 : Fin 2) * 64 + 1 * q.val = q.val; rw [e1]; omega

/-- An index of the array is in point t's block iff each coordinate is in the block's range on its axis. -/
theorem mem_blk3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v20_0).slice (win1_3.rect t)).set ↔ _
  rw [View.set_slice_whole, Rect.mem_set_unit]
  exact Iff.rfl

/-- Every block of 5000 rows is some point's. -/
theorem onto3 : ∀ (b : Fin 10), ∃ t : Fin cfg1.N, win1_3.index t = ![b.val, 0] :=
  (by decide +kernel : ∀ (b : Fin 10), ∃ t : Fin grid1.N, win1_3.index t = ![b.val, 0])

/-- Row i is in the block of point i / 5000: the ten blocks cover the array. -/
theorem cover3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := onto3 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- Entry (p, q) of point t's block of result window 4 sits at (5000 t + p, q) of its array. -/
theorem out4_emb (t : Fin cfg1.N) (p : Fin 5000) (q : Fin 64) (i : Fin 50000) (hi : i.val = 5000 * t.val + p.val) :
    ((cfg1.win 4).blk t).view.emb (ix2 p q) = (ix2 i q : S50000x64.Idx) := by
  obtain ⟨e0, e1⟩ := rows_w4 t
  funext a
  apply Fin.ext
  match a with
  | ⟨0, _⟩ => show win1_4.index t (0 : Fin 2) * 5000 + 1 * p.val = i.val; rw [e0, hi]; omega
  | ⟨1, _⟩ => show win1_4.index t (1 : Fin 2) * 64 + 1 * q.val = q.val; rw [e1]; omega

/-- An index of the array is in point t's block iff each coordinate is in the block's range on its axis. -/
theorem mem_blk4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v20_1).slice (win1_4.rect t)).set ↔ _
  rw [View.set_slice_whole, Rect.mem_set_unit]
  exact Iff.rfl

/-- Every block of 5000 rows is some point's. -/
theorem onto4 : ∀ (b : Fin 10), ∃ t : Fin cfg1.N, win1_4.index t = ![b.val, 0] :=
  (by decide +kernel : ∀ (b : Fin 10), ∃ t : Fin grid1.N, win1_4.index t = ![b.val, 0])

/-- Row i is in the block of point i / 5000: the ten blocks cover the array. -/
theorem cover4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := onto4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- What point t writes back to the hidden state's array is block t of the whole hidden state. -/
theorem flushed_hidden (c : Dev nD) (t : Fin cfg1.N) :
    (dat1 V c).flushed 3 t = ((cfg1.win 3).blk t).view.read (Elt Ideal) (Cert.JKNet.biasReluRow (V c main_v18) (V c main_v19)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  have ht := point_lt t
  have hp := p.isLt
  let i : Fin 50000 := ⟨5000 * t.val + p.val, by omega⟩
  show k1_pay1 (iblk1 V c 0 t) (iblk1 V c 1 t) (ix2 p q)
    = Cert.JKNet.biasReluRow (V c main_v18) (V c main_v19) (((cfg1.win 3).blk t).view.emb (ix2 p q))
  rw [relu_apply, out3_emb t p q i rfl, Cert.JKNet.biasReluRow_apply, edge_apply V c t p q i rfl, bias_apply V c t 0 q]

/-- What point t writes back to the table's array is block t of the whole hidden state times the weight matrix. -/
theorem flushed_table (c : Dev nD) (t : Fin cfg1.N) :
    (dat1 V c).flushed 4 t = ((cfg1.win 4).blk t).view.read (Elt Ideal)
      (Cert.JKNet.table (Cert.JKNet.biasReluRow (V c main_v18) (V c main_v19)) (V c main_arg5)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S64x64) hz]
  refine funext fun (j : S5000x64.Idx) => ?_
  obtain ⟨p, q, rfl⟩ : ∃ (p : Fin 5000) (q : Fin 64), j = ix2 p q := ⟨j 0, j 1, eq_ix2 j⟩
  have ht := point_lt t
  have hp := p.isLt
  let i : Fin 50000 := ⟨5000 * t.val + p.val, by omega⟩
  show k1_pay2 (iblk1 V c 0 t) (iblk1 V c 1 t) (iblk1 V c 2 t) (ix2 p q)
    = Cert.JKNet.table (Cert.JKNet.biasReluRow (V c main_v18) (V c main_v19)) (V c main_arg5) (((cfg1.win 4).blk t).view.emb (ix2 p q))
  rw [lin_apply, out4_emb t p q i rfl, Cert.JKNet.table_apply]
  refine Finset.sum_congr rfl fun k _ => ?_
  rw [relu_apply, Cert.JKNet.biasReluRow_apply, edge_apply V c t p k i rfl, bias_apply V c t 0 k, weight_apply V c t k q]

/-- After the region the hidden state's array is the whole hidden state of the arrays as the region found them. -/
theorem final_hidden (c : Dev nD) :
    (dat1 V c).arrAt 3 cfg1.N = Cert.JKNet.biasReluRow (V c main_v18) (V c main_v19) :=
  (dat1 V c).arrAt_eq_of_cover 3 (Cert.JKNet.biasReluRow (V c main_v18) (V c main_v19)) (fun t _ => flushed_hidden V c t) cover3

/-- After the region the table's array is the whole hidden state times the weight matrix. -/
theorem final_table (c : Dev nD) :
    (dat1 V c).arrAt 4 cfg1.N = Cert.JKNet.table (Cert.JKNet.biasReluRow (V c main_v18) (V c main_v19)) (V c main_arg5) :=
  (dat1 V c).arrAt_eq_of_cover 4 (Cert.JKNet.table (Cert.JKNet.biasReluRow (V c main_v18) (V c main_v19)) (V c main_arg5))
    (fun t _ => flushed_table V c t) cover4

end Cert.KernelIdeal.Region1

end
-- ==== Proof.Region2.lean ====
/-
  Kernel region 2 (of regions 0–4): bias, rectifier, and the next layer's table.

  The region runs over ten grid points.  Point t holds rows 5000 t … 5000 t + 4999 of an edge sum [50000, 64], the layer's
  bias as one row [1, 64] and the next layer's weight matrix [64, 64].  It writes back two row blocks: the hidden
  state (entry (p, q): the larger of zero and the edge sum at (5000 t + p, q) plus the bias at q), and the hidden
  state's block times the weight matrix (entry (p, q): the sum over k of the hidden state at (5000 t + p, k) times
  the weight at (k, q)).  Both are the corresponding rows of the whole-array functions, and the ten blocks cover
  each array (`final_hidden`, `final_table`).
-/
import proofs.«141563_j14697378087200_2_alg».proof.Proof.Patched.KernelIdeal.Frame
import Idealize.ShloMosaic.Lib.Pipeline.Value
import Idealize.ShloMosaic.Lib.ValueIdx
import Idealize.ShloMosaic.Lib.ValueLayout
import proofs.«141563_j14697378087200_2_alg».proof.Proof.LibPlainMatmul
import proofs.«141563_j14697378087200_2_alg».proof.Proof.JKNetReads

set_option maxRecDepth 16384

noncomputable section

open scoped BigOperators

namespace Cert.KernelIdeal.Region2

open Cert.KernelIdeal Cert.KernelIdeal.Gen Cert.KernelIdeal.GenP Idealize.ShloMosaic Idealize.ShloMosaic.TcCoe Idealize.SL.Sem
open Idealize.ShloMosaic.ValueIdx Idealize.ShloMosaic.PlainMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem point_lt : ∀ t : Fin cfg2.N, t.val < 10 := (by decide +kernel : ∀ t : Fin grid2.N, _)

theorem rows_w0 : ∀ t : Fin cfg2.N, win2_0.index t (0 : Fin 2) = t.val ∧ win2_0.index t (1 : Fin 2) = 0 :=
  (by decide +kernel : ∀ t : Fin grid2.N, _)

theorem fixed_w1 : ∀ t : Fin cfg2.N, win2_1.index t (0 : Fin 2) = 0 ∧ win2_1.index t (1 : Fin 2) = 0 :=
  (by decide +kernel : ∀ t : Fin grid2.N, _)

theorem fixed_w2 : ∀ t : Fin cfg2.N, win2_2.index t (0 : Fin 2) = 0 ∧ win2_2.index t (1 : Fin 2) = 0 :=
  (by decide +kernel : ∀ t : Fin grid2.N, _)

theorem rows_w3 : ∀ t : Fin cfg2.N, win2_3.index t (0 : Fin 2) = t.val ∧ win2_3.index t (1 : Fin 2) = 0 :=
  (by decide +kernel : ∀ t : Fin grid2.N, _)

theorem rows_w4 : ∀ t : Fin cfg2.N, win2_4.index t (0 : Fin 2) = t.val ∧ win2_4.index t (1 : Fin 2) = 0 :=
  (by decide +kernel : ∀ t : Fin grid2.N, _)

/-- Point t's edge-sum block at (p, k) is the edge sum at (5000 t + p, k). -/
theorem edge_apply (c : Dev nD) (t : Fin cfg2.N) (p : Fin 5000) (k : Fin 64) (i : Fin 50000) (hi : i.val = 5000 * t.val + p.val) :
    iblk2 V c 0 t (ix2 p k) = V c main_v33 (ix2 i k) := by
  obtain ⟨e0, e1⟩ := rows_w0 t
  unfold iblk2
  rw [View.read_apply]
  show V c main_v33 _ = V c main_v33 _
  refine congrArg (V c main_v33) ?_
  funext a
  apply Fin.ext
  match a with
  | ⟨0, _⟩ => show win2_0.index t (0 : Fin 2) * 5000 + 1 * p.val = i.val; rw [e0, hi]; omega
  | ⟨1, _⟩ => show win2_0.index t (1 : Fin 2) * 64 + 1 * k.val = k.val; rw [e1]; omega

/-- Point t's bias block is the bias row. -/
theorem bias_apply (c : Dev nD) (t : Fin cfg2.N) (a : Fin 1) (b : Fin 64) :
    iblk2 V c 1 t (ix2 a b) = V c main_v34 (ix2 a b) := by
  obtain ⟨e0, e1⟩ := fixed_w1 t
  unfold iblk2
  rw [View.read_apply]
  show V c main_v34 _ = V c main_v34 _
  refine congrArg (V c main_v34) ?_
  funext d
  apply Fin.ext
  match d with
  | ⟨0, _⟩ => show win2_1.index t (0 : Fin 2) * 1 + 1 * a.val = a.val; rw [e0]; omega
  | ⟨1, _⟩ => show win2_1.index t (1 : Fin 2) * 64 + 1 * b.val = b.val; rw [e1]; omega

/-- Point t's weight block is the weight matrix. -/
theorem weight_apply (c : Dev nD) (t : Fin cfg2.N) (a : Fin 64) (b : Fin 64) :
    iblk2 V c 2 t (ix2 a b) = V c main_arg7 (ix2 a b) := by
  obtain ⟨e0, e1⟩ := fixed_w2 t
  unfold iblk2
  rw [View.read_apply]
  show V c main_arg7 _ = V c main_arg7 _
  refine congrArg (V c main_arg7) ?_
  funext d
  apply Fin.ext
  match d with
  | ⟨0, _⟩ => show win2_2.index t (0 : Fin 2) * 64 + 1 * a.val = a.val; rw [e0]; omega
  | ⟨1, _⟩ => show win2_2.index t (1 : Fin 2) * 64 + 1 * b.val = b.val; rw [e1]; omega

/-- The body's first stored value at (p, q): the larger of zero and the block's entry plus the bias row's entry q. -/
theorem relu_apply (x0 : Vec Ideal S5000x64 .f32) (x1 : Vec Ideal S1x64 .f32) (p : Fin 5000) (q : Fin 64) :
    k2_pay1 x0 x1 (ix2 p q) = max (x0 (ix2 p q) + x1 (ix2 (0 : Fin 1) q)) (Ideal.ofBits .f32 0x00000000#32) := by
  unfold k2_pay1
  rw [shapeCast_self, shapeCast_self]
  show max (x0 (ix2 p q) + broadcastTo S5000x64 x1 broadcasts_S1x64_S5000x64 (ix2 p q)) _ = _
  rw [broadcastTo_1b_ab_apply]
  rfl

/-- The body's second stored value at (p, q): the sum over k of the first at (p, k) times the weight block at (k, q). -/
theorem lin_apply (x0 : Vec Ideal S5000x64 .f32) (x1 : Vec Ideal S1x64 .f32) (x2 : Vec Ideal S64x64 .f32) (p : Fin 5000) (q : Fin 64) :
    k2_pay2 x0 x1 x2 (ix2 p q) = ∑ k : Fin 64, k2_pay1 x0 x1 (ix2 p k) * x2 (ix2 k q) := by
  unfold k2_pay2
  exact plainMatmul_apply (M := 5000) (K := 64) (N := 64) none (truncf .bf16 (k2_pay1 x0 x1) bitsLt_bf16_f32) (truncf .bf16 x2 bitsLt_bf16_f32) p q

/-- Entry (p, q) of point t's block of result window 3 sits at (5000 t + p, q) of its array. -/
theorem out3_emb (t : Fin cfg2.N) (p : Fin 5000) (q : Fin 64) (i : Fin 50000) (hi : i.val = 5000 * t.val + p.val) :
    ((cfg2.win 3).blk t).view.emb (ix2 p q) = (ix2 i q : S50000x64.Idx) := by
  obtain ⟨e0, e1⟩ := rows_w3 t
  funext a
  apply Fin.ext
  match a with
  | ⟨0, _⟩ => show win2_3.index t (0 : Fin 2) * 5000 + 1 * p.val = i.val; rw [e0, hi]; omega
  | ⟨1, _⟩ => show win2_3.index t (1 : Fin 2) * 64 + 1 * q.val = q.val; rw [e1]; omega

/-- An index of the array is in point t's block iff each coordinate is in the block's range on its axis. -/
theorem mem_blk3 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v35_0).slice (win2_3.rect t)).set ↔ _
  rw [View.set_slice_whole, Rect.mem_set_unit]
  exact Iff.rfl

/-- Every block of 5000 rows is some point's. -/
theorem onto3 : ∀ (b : Fin 10), ∃ t : Fin cfg2.N, win2_3.index t = ![b.val, 0] :=
  (by decide +kernel : ∀ (b : Fin 10), ∃ t : Fin grid2.N, win2_3.index t = ![b.val, 0])

/-- Row i is in the block of point i / 5000: the ten blocks cover the array. -/
theorem cover3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := onto3 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- Entry (p, q) of point t's block of result window 4 sits at (5000 t + p, q) of its array. -/
theorem out4_emb (t : Fin cfg2.N) (p : Fin 5000) (q : Fin 64) (i : Fin 50000) (hi : i.val = 5000 * t.val + p.val) :
    ((cfg2.win 4).blk t).view.emb (ix2 p q) = (ix2 i q : S50000x64.Idx) := by
  obtain ⟨e0, e1⟩ := rows_w4 t
  funext a
  apply Fin.ext
  match a with
  | ⟨0, _⟩ => show win2_4.index t (0 : Fin 2) * 5000 + 1 * p.val = i.val; rw [e0, hi]; omega
  | ⟨1, _⟩ => show win2_4.index t (1 : Fin 2) * 64 + 1 * q.val = q.val; rw [e1]; omega

/-- An index of the array is in point t's block iff each coordinate is in the block's range on its axis. -/
theorem mem_blk4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v35_1).slice (win2_4.rect t)).set ↔ _
  rw [View.set_slice_whole, Rect.mem_set_unit]
  exact Iff.rfl

/-- Every block of 5000 rows is some point's. -/
theorem onto4 : ∀ (b : Fin 10), ∃ t : Fin cfg2.N, win2_4.index t = ![b.val, 0] :=
  (by decide +kernel : ∀ (b : Fin 10), ∃ t : Fin grid2.N, win2_4.index t = ![b.val, 0])

/-- Row i is in the block of point i / 5000: the ten blocks cover the array. -/
theorem cover4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := onto4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- What point t writes back to the hidden state's array is block t of the whole hidden state. -/
theorem flushed_hidden (c : Dev nD) (t : Fin cfg2.N) :
    (dat2 V c).flushed 3 t = ((cfg2.win 3).blk t).view.read (Elt Ideal) (Cert.JKNet.biasReluRow (V c main_v33) (V c main_v34)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  have ht := point_lt t
  have hp := p.isLt
  let i : Fin 50000 := ⟨5000 * t.val + p.val, by omega⟩
  show k2_pay1 (iblk2 V c 0 t) (iblk2 V c 1 t) (ix2 p q)
    = Cert.JKNet.biasReluRow (V c main_v33) (V c main_v34) (((cfg2.win 3).blk t).view.emb (ix2 p q))
  rw [relu_apply, out3_emb t p q i rfl, Cert.JKNet.biasReluRow_apply, edge_apply V c t p q i rfl, bias_apply V c t 0 q]

/-- What point t writes back to the table's array is block t of the whole hidden state times the weight matrix. -/
theorem flushed_table (c : Dev nD) (t : Fin cfg2.N) :
    (dat2 V c).flushed 4 t = ((cfg2.win 4).blk t).view.read (Elt Ideal)
      (Cert.JKNet.table (Cert.JKNet.biasReluRow (V c main_v33) (V c main_v34)) (V c main_arg7)) := by
  show (cfg2.win 4).cut (grid2.coords t) ((dat2 V c).after 4 t) = _
  rw [after2_4]
  unfold out2_4
  rw [View.canon_unit_zero hz]
  simp only [View.ld_unit_zero (S := S5000x64) hz, View.ld_unit_zero (S := S1x64) hz, View.ld_unit_zero (S := S64x64) hz]
  refine funext fun (j : S5000x64.Idx) => ?_
  obtain ⟨p, q, rfl⟩ : ∃ (p : Fin 5000) (q : Fin 64), j = ix2 p q := ⟨j 0, j 1, eq_ix2 j⟩
  have ht := point_lt t
  have hp := p.isLt
  let i : Fin 50000 := ⟨5000 * t.val + p.val, by omega⟩
  show k2_pay2 (iblk2 V c 0 t) (iblk2 V c 1 t) (iblk2 V c 2 t) (ix2 p q)
    = Cert.JKNet.table (Cert.JKNet.biasReluRow (V c main_v33) (V c main_v34)) (V c main_arg7) (((cfg2.win 4).blk t).view.emb (ix2 p q))
  rw [lin_apply, out4_emb t p q i rfl, Cert.JKNet.table_apply]
  refine Finset.sum_congr rfl fun k _ => ?_
  rw [relu_apply, Cert.JKNet.biasReluRow_apply, edge_apply V c t p k i rfl, bias_apply V c t 0 k, weight_apply V c t k q]

/-- After the region the hidden state's array is the whole hidden state of the arrays as the region found them. -/
theorem final_hidden (c : Dev nD) :
    (dat2 V c).arrAt 3 cfg2.N = Cert.JKNet.biasReluRow (V c main_v33) (V c main_v34) :=
  (dat2 V c).arrAt_eq_of_cover 3 (Cert.JKNet.biasReluRow (V c main_v33) (V c main_v34)) (fun t _ => flushed_hidden V c t) cover3

/-- After the region the table's array is the whole hidden state times the weight matrix. -/
theorem final_table (c : Dev nD) :
    (dat2 V c).arrAt 4 cfg2.N = Cert.JKNet.table (Cert.JKNet.biasReluRow (V c main_v33) (V c main_v34)) (V c main_arg7) :=
  (dat2 V c).arrAt_eq_of_cover 4 (Cert.JKNet.table (Cert.JKNet.biasReluRow (V c main_v33) (V c main_v34)) (V c main_arg7))
    (fun t _ => flushed_table V c t) cover4

end Cert.KernelIdeal.Region2

end
-- ==== Proof.Region3.lean ====
/-
  Kernel region 3 (of regions 0–4): the last layer's bias and rectifier.

  Point t of ten holds rows 5000 t … 5000 t + 4999 of the third edge sum [50000, 64] and the bias as one row, and writes
  back the same rows of the hidden state: entry (p, q) is the larger of zero and the edge sum at (5000 t + p, q) plus
  the bias at q.  The ten blocks cover the array (`final_hidden`).
-/
import proofs.«141563_j14697378087200_2_alg».proof.Proof.Patched.KernelIdeal.Frame
import Idealize.ShloMosaic.Lib.Pipeline.Value
import Idealize.ShloMosaic.Lib.ValueIdx
import Idealize.ShloMosaic.Lib.ValueLayout
import proofs.«141563_j14697378087200_2_alg».proof.Proof.LibPlainMatmul
import proofs.«141563_j14697378087200_2_alg».proof.Proof.JKNetReads

set_option maxRecDepth 16384

noncomputable section

open scoped BigOperators

namespace Cert.KernelIdeal.Region3

open Cert.KernelIdeal Cert.KernelIdeal.Gen Cert.KernelIdeal.GenP Idealize.ShloMosaic Idealize.ShloMosaic.TcCoe Idealize.SL.Sem
open Idealize.ShloMosaic.ValueIdx Idealize.ShloMosaic.PlainMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem point_lt : ∀ t : Fin cfg3.N, t.val < 10 := (by decide +kernel : ∀ t : Fin grid3.N, _)

theorem rows_w0 : ∀ t : Fin cfg3.N, win3_0.index t (0 : Fin 2) = t.val ∧ win3_0.index t (1 : Fin 2) = 0 :=
  (by decide +kernel : ∀ t : Fin grid3.N, _)

theorem fixed_w1 : ∀ t : Fin cfg3.N, win3_1.index t (0 : Fin 2) = 0 ∧ win3_1.index t (1 : Fin 2) = 0 :=
  (by decide +kernel : ∀ t : Fin grid3.N, _)

theorem rows_w2 : ∀ t : Fin cfg3.N, win3_2.index t (0 : Fin 2) = t.val ∧ win3_2.index t (1 : Fin 2) = 0 :=
  (by decide +kernel : ∀ t : Fin grid3.N, _)

/-- Point t's edge-sum block at (p, k) is the edge sum at (5000 t + p, k). -/
theorem edge_apply (c : Dev nD) (t : Fin cfg3.N) (p : Fin 5000) (k : Fin 64) (i : Fin 50000) (hi : i.val = 5000 * t.val + p.val) :
    iblk3 V c 0 t (ix2 p k) = V c main_v48 (ix2 i k) := by
  obtain ⟨e0, e1⟩ := rows_w0 t
  unfold iblk3
  rw [View.read_apply]
  show V c main_v48 _ = V c main_v48 _
  refine congrArg (V c main_v48) ?_
  funext a
  apply Fin.ext
  match a with
  | ⟨0, _⟩ => show win3_0.index t (0 : Fin 2) * 5000 + 1 * p.val = i.val; rw [e0, hi]; omega
  | ⟨1, _⟩ => show win3_0.index t (1 : Fin 2) * 64 + 1 * k.val = k.val; rw [e1]; omega

/-- Point t's bias block is the bias row. -/
theorem bias_apply (c : Dev nD) (t : Fin cfg3.N) (a : Fin 1) (b : Fin 64) :
    iblk3 V c 1 t (ix2 a b) = V c main_v49 (ix2 a b) := by
  obtain ⟨e0, e1⟩ := fixed_w1 t
  unfold iblk3
  rw [View.read_apply]
  show V c main_v49 _ = V c main_v49 _
  refine congrArg (V c main_v49) ?_
  funext d
  apply Fin.ext
  match d with
  | ⟨0, _⟩ => show win3_1.index t (0 : Fin 2) * 1 + 1 * a.val = a.val; rw [e0]; omega
  | ⟨1, _⟩ => show win3_1.index t (1 : Fin 2) * 64 + 1 * b.val = b.val; rw [e1]; omega

/-- The body's first stored value at (p, q): the larger of zero and the block's entry plus the bias row's entry q. -/
theorem relu_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  rw [shapeCast_self, shapeCast_self]
  show max (x0 (ix2 p q) + broadcastTo S5000x64 x1 broadcasts_S1x64_S5000x64 (ix2 p q)) _ = _
  rw [broadcastTo_1b_ab_apply]
  rfl

/-- Entry (p, q) of point t's block of result window 2 sits at (5000 t + p, q) of its array. -/
theorem out2_emb (t : Fin cfg3.N) (p : Fin 5000) (q : Fin 64) (i : Fin 50000) (hi : i.val = 5000 * t.val + p.val) :
    ((cfg3.win 2).blk t).view.emb (ix2 p q) = (ix2 i q : S50000x64.Idx) := by
  obtain ⟨e0, e1⟩ := rows_w2 t
  funext a
  apply Fin.ext
  match a with
  | ⟨0, _⟩ => show win3_2.index t (0 : Fin 2) * 5000 + 1 * p.val = i.val; rw [e0, hi]; omega
  | ⟨1, _⟩ => show win3_2.index t (1 : Fin 2) * 64 + 1 * q.val = q.val; rw [e1]; omega

/-- An index of the array is in point t's block iff each coordinate is in the block's range on its axis. -/
theorem mem_blk2 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v50).slice (win3_2.rect t)).set ↔ _
  rw [View.set_slice_whole, Rect.mem_set_unit]
  exact Iff.rfl

/-- Every block of 5000 rows is some point's. -/
theorem onto2 : ∀ (b : Fin 10), ∃ t : Fin cfg3.N, win3_2.index t = ![b.val, 0] :=
  (by decide +kernel : ∀ (b : Fin 10), ∃ t : Fin grid3.N, win3_2.index t = ![b.val, 0])

/-- Row i is in the block of point i / 5000: the ten blocks cover the array. -/
theorem cover2 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := onto2 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- What point t writes back is block t of the whole hidden state. -/
theorem flushed_hidden (c : Dev nD) (t : Fin cfg3.N) :
    (dat3 V c).flushed 2 t = ((cfg3.win 2).blk t).view.read (Elt Ideal) (Cert.JKNet.biasReluRow (V c main_v48) (V c main_v49)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  have ht := point_lt t
  have hp := p.isLt
  let i : Fin 50000 := ⟨5000 * t.val + p.val, by omega⟩
  show k3_pay1 (iblk3 V c 0 t) (iblk3 V c 1 t) (ix2 p q)
    = Cert.JKNet.biasReluRow (V c main_v48) (V c main_v49) (((cfg3.win 2).blk t).view.emb (ix2 p q))
  rw [relu_apply, out2_emb t p q i rfl, Cert.JKNet.biasReluRow_apply, edge_apply V c t p q i rfl, bias_apply V c t 0 q]

/-- After the region the hidden state's array is the whole hidden state of the arrays as the region found them. -/
theorem final_hidden (c : Dev nD) :
    (dat3 V c).arrAt 2 cfg3.N = Cert.JKNet.biasReluRow (V c main_v48) (V c main_v49) :=
  (dat3 V c).arrAt_eq_of_cover 2 (Cert.JKNet.biasReluRow (V c main_v48) (V c main_v49)) (fun t _ => flushed_hidden V c t) cover2

end Cert.KernelIdeal.Region3

end
-- ==== Proof.Region4.lean ====
/-
  Kernel region 4 (of regions 0–4): the output layer, without joining the hidden states.

  Point t of ten holds rows 5000 t … 5000 t + 4999 of each of the three hidden states [50000, 64], three [64, 40] matrices
  and the output bias as one row [1, 40].  It writes back the same rows of the result [50000, 40]: entry (p, q) is the
  sum over k of the first hidden state at (5000 t + p, k) times the first matrix at (k, q), plus the like sums for the
  second and the third, plus the bias at q.  The ten blocks cover the result array (`final`).
-/
import proofs.«141563_j14697378087200_2_alg».proof.Proof.Patched.KernelIdeal.Frame
import Idealize.ShloMosaic.Lib.Pipeline.Value
import Idealize.ShloMosaic.Lib.ValueIdx
import Idealize.ShloMosaic.Lib.ValueLayout
import proofs.«141563_j14697378087200_2_alg».proof.Proof.LibPlainMatmul
import proofs.«141563_j14697378087200_2_alg».proof.Proof.JKNetReads
import proofs.«141563_j14697378087200_2_alg».proof.Proof.LibPlainDot
import proofs.«141563_j14697378087200_2_alg».proof.Proof.LibHostReads
set_option maxRecDepth 16384

noncomputable section

open scoped BigOperators

namespace Cert.KernelIdeal.Region4

open Cert.KernelIdeal Cert.KernelIdeal.Gen Cert.KernelIdeal.GenP Idealize.ShloMosaic Idealize.ShloMosaic.TcCoe Idealize.SL.Sem
open Idealize.ShloMosaic.ValueIdx Idealize.ShloMosaic.PlainMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

open Idealize.ShloMosaic.PlainDot Idealize.ShloMosaic.HostReads

theorem point_lt : ∀ t : Fin cfg4.N, t.val < 10 := (by decide +kernel : ∀ t : Fin grid4.N, _)

theorem rows_w0 : ∀ t : Fin cfg4.N, win4_0.index t (0 : Fin 2) = t.val ∧ win4_0.index t (1 : Fin 2) = 0 :=
  (by decide +kernel : ∀ t : Fin grid4.N, _)

theorem rows_w1 : ∀ t : Fin cfg4.N, win4_1.index t (0 : Fin 2) = t.val ∧ win4_1.index t (1 : Fin 2) = 0 :=
  (by decide +kernel : ∀ t : Fin grid4.N, _)

theorem rows_w2 : ∀ t : Fin cfg4.N, win4_2.index t (0 : Fin 2) = t.val ∧ win4_2.index t (1 : Fin 2) = 0 :=
  (by decide +kernel : ∀ t : Fin grid4.N, _)

theorem fixed_w3 : ∀ t : Fin cfg4.N, win4_3.index t (0 : Fin 2) = 0 ∧ win4_3.index t (1 : Fin 2) = 0 :=
  (by decide +kernel : ∀ t : Fin grid4.N, _)

theorem fixed_w4 : ∀ t : Fin cfg4.N, win4_4.index t (0 : Fin 2) = 0 ∧ win4_4.index t (1 : Fin 2) = 0 :=
  (by decide +kernel : ∀ t : Fin grid4.N, _)

theorem fixed_w5 : ∀ t : Fin cfg4.N, win4_5.index t (0 : Fin 2) = 0 ∧ win4_5.index t (1 : Fin 2) = 0 :=
  (by decide +kernel : ∀ t : Fin grid4.N, _)

theorem fixed_w6 : ∀ t : Fin cfg4.N, win4_6.index t (0 : Fin 2) = 0 ∧ win4_6.index t (1 : Fin 2) = 0 :=
  (by decide +kernel : ∀ t : Fin grid4.N, _)

theorem rows_w7 : ∀ t : Fin cfg4.N, win4_7.index t (0 : Fin 2) = t.val ∧ win4_7.index t (1 : Fin 2) = 0 :=
  (by decide +kernel : ∀ t : Fin grid4.N, _)

/-- Point t's block of the first hidden state at (p, k) is that state at (5000 t + p, k). -/
theorem first_apply (c : Dev nD) (t : Fin cfg4.N) (p : Fin 5000) (k : Fin 64) (i : Fin 50000) (hi : i.val = 5000 * t.val + p.val) :
    iblk4 V c 0 t (ix2 p k) = V c main_v20_0 (ix2 i k) := by
  obtain ⟨e0, e1⟩ := rows_w0 t
  unfold iblk4
  rw [View.read_apply]
  show V c main_v20_0 _ = V c main_v20_0 _
  refine congrArg (V c main_v20_0) ?_
  funext a
  apply Fin.ext
  match a with
  | ⟨0, _⟩ => show win4_0.index t (0 : Fin 2) * 5000 + 1 * p.val = i.val; rw [e0, hi]; omega
  | ⟨1, _⟩ => show win4_0.index t (1 : Fin 2) * 64 + 1 * k.val = k.val; rw [e1]; omega

/-- The same for the second hidden state. -/
theorem second_apply (c : Dev nD) (t : Fin cfg4.N) (p : Fin 5000) (k : Fin 64) (i : Fin 50000) (hi : i.val = 5000 * t.val + p.val) :
    iblk4 V c 1 t (ix2 p k) = V c main_v35_0 (ix2 i k) := by
  obtain ⟨e0, e1⟩ := rows_w1 t
  unfold iblk4
  rw [View.read_apply]
  show V c main_v35_0 _ = V c main_v35_0 _
  refine congrArg (V c main_v35_0) ?_
  funext a
  apply Fin.ext
  match a with
  | ⟨0, _⟩ => show win4_1.index t (0 : Fin 2) * 5000 + 1 * p.val = i.val; rw [e0, hi]; omega
  | ⟨1, _⟩ => show win4_1.index t (1 : Fin 2) * 64 + 1 * k.val = k.val; rw [e1]; omega

/-- The same for the third hidden state. -/
theorem third_apply (c : Dev nD) (t : Fin cfg4.N) (p : Fin 5000) (k : Fin 64) (i : Fin 50000) (hi : i.val = 5000 * t.val + p.val) :
    iblk4 V c 2 t (ix2 p k) = V c main_v50 (ix2 i k) := by
  obtain ⟨e0, e1⟩ := rows_w2 t
  unfold iblk4
  rw [View.read_apply]
  show V c main_v50 _ = V c main_v50 _
  refine congrArg (V c main_v50) ?_
  funext a
  apply Fin.ext
  match a with
  | ⟨0, _⟩ => show win4_2.index t (0 : Fin 2) * 5000 + 1 * p.val = i.val; rw [e0, hi]; omega
  | ⟨1, _⟩ => show win4_2.index t (1 : Fin 2) * 64 + 1 * k.val = k.val; rw [e1]; omega

/-- Point t's block of the first matrix is that matrix. -/
theorem wa_apply (c : Dev nD) (t : Fin cfg4.N) (a : Fin 64) (b : Fin 40) :
    iblk4 V c 3 t (ix2 a b) = V c main_v51 (ix2 a b) := by
  obtain ⟨e0, e1⟩ := fixed_w3 t
  unfold iblk4
  rw [View.read_apply]
  show V c main_v51 _ = V c main_v51 _
  refine congrArg (V c main_v51) ?_
  funext d
  apply Fin.ext
  match d with
  | ⟨0, _⟩ => show win4_3.index t (0 : Fin 2) * 64 + 1 * a.val = a.val; rw [e0]; omega
  | ⟨1, _⟩ => show win4_3.index t (1 : Fin 2) * 40 + 1 * b.val = b.val; rw [e1]; omega

/-- The same for the second matrix. -/
theorem wb_apply (c : Dev nD) (t : Fin cfg4.N) (a : Fin 64) (b : Fin 40) :
    iblk4 V c 4 t (ix2 a b) = V c main_v52 (ix2 a b) := by
  obtain ⟨e0, e1⟩ := fixed_w4 t
  unfold iblk4
  rw [View.read_apply]
  show V c main_v52 _ = V c main_v52 _
  refine congrArg (V c main_v52) ?_
  funext d
  apply Fin.ext
  match d with
  | ⟨0, _⟩ => show win4_4.index t (0 : Fin 2) * 64 + 1 * a.val = a.val; rw [e0]; omega
  | ⟨1, _⟩ => show win4_4.index t (1 : Fin 2) * 40 + 1 * b.val = b.val; rw [e1]; omega

/-- The same for the third matrix. -/
theorem wc_apply (c : Dev nD) (t : Fin cfg4.N) (a : Fin 64) (b : Fin 40) :
    iblk4 V c 5 t (ix2 a b) = V c main_v53 (ix2 a b) := by
  obtain ⟨e0, e1⟩ := fixed_w5 t
  unfold iblk4
  rw [View.read_apply]
  show V c main_v53 _ = V c main_v53 _
  refine congrArg (V c main_v53) ?_
  funext d
  apply Fin.ext
  match d with
  | ⟨0, _⟩ => show win4_5.index t (0 : Fin 2) * 64 + 1 * a.val = a.val; rw [e0]; omega
  | ⟨1, _⟩ => show win4_5.index t (1 : Fin 2) * 40 + 1 * b.val = b.val; rw [e1]; omega

/-- Point t's bias block is the bias row. -/
theorem brow_apply (c : Dev nD) (t : Fin cfg4.N) (a : Fin 1) (b : Fin 40) :
    iblk4 V c 6 t (ix2 a b) = V c main_v54 (ix2 a b) := by
  obtain ⟨e0, e1⟩ := fixed_w6 t
  unfold iblk4
  rw [View.read_apply]
  show V c main_v54 _ = V c main_v54 _
  refine congrArg (V c main_v54) ?_
  funext d
  apply Fin.ext
  match d with
  | ⟨0, _⟩ => show win4_6.index t (0 : Fin 2) * 1 + 1 * a.val = a.val; rw [e0]; omega
  | ⟨1, _⟩ => show win4_6.index t (1 : Fin 2) * 40 + 1 * b.val = b.val; rw [e1]; omega

/-- The three products summed, plus the bias row, as one function of whole arrays. -/
def headRows (h1 h2 h3 : FVec Ideal S50000x64 .f32) (Wa Wb Wc : FVec Ideal S64x40 .f32) (bR : FVec Ideal S1x40 .f32) :
    FVec Ideal S50000x40 .f32 :=
  addf (addf (addf (Host.dotGeneral (DotDims.plain 50000 64 40) none h1 Wa) (Host.dotGeneral (DotDims.plain 50000 64 40) none h2 Wb))
      (Host.dotGeneral (DotDims.plain 50000 64 40) none h3 Wc))
    (broadcastInDim S50000x40 ![0, 1] Cert.ReferenceIdeal.Gen.bcast_S1x40_S50000x40_0_1 bR)

/-- `headRows` at (i, j). -/
theorem headRows_apply (h1 h2 h3 : FVec Ideal S50000x64 .f32) (Wa Wb Wc : FVec Ideal S64x40 .f32) (bR : FVec Ideal S1x40 .f32)
    (i : Fin 50000) (j : Fin 40) :
    headRows h1 h2 h3 Wa Wb Wc bR (ix2 i j)
      = ((∑ k : Fin 64, h1 (ix2 i k) * Wa (ix2 k j) + ∑ k : Fin 64, h2 (ix2 i k) * Wb (ix2 k j))
          + ∑ k : Fin 64, h3 (ix2 i k) * Wc (ix2 k j)) + bR (ix2 (0 : Fin 1) j) := by
  unfold headRows
  rw [addf_apply, addf_apply, addf_apply, plainDot_apply, plainDot_apply, plainDot_apply, bcast_row_apply]

/-- The body's stored value at (p, q): the three blocks' products summed, plus the bias row's entry q. -/
theorem head_pay_apply (x0 x1 x2 : Vec Ideal S5000x64 .f32) (x3 x4 x5 : Vec Ideal S64x40 .f32) (x6 : Vec Ideal S1x40 .f32)
    (p : Fin 5000) (q : Fin 40) :
    k4_pay1 x0 x1 x2 x3 x4 x5 x6 (ix2 p q)
      = ((∑ k : Fin 64, x0 (ix2 p k) * x3 (ix2 k q) + ∑ k : Fin 64, x1 (ix2 p k) * x4 (ix2 k q))
          + ∑ k : Fin 64, x2 (ix2 p k) * x5 (ix2 k q)) + x6 (ix2 (0 : Fin 1) q) := by
  have e1 := plainMatmul_apply (M := 5000) (K := 64) (N := 40) none (truncf .bf16 x0 bitsLt_bf16_f32) (truncf .bf16 x3 bitsLt_bf16_f32) p q
  have e2 := plainMatmul_apply (M := 5000) (K := 64) (N := 40) none (truncf .bf16 x1 bitsLt_bf16_f32) (truncf .bf16 x4 bitsLt_bf16_f32) p q
  have e3 := plainMatmul_apply (M := 5000) (K := 64) (N := 40) none (truncf .bf16 x2 bitsLt_bf16_f32) (truncf .bf16 x5 bitsLt_bf16_f32) p q
  have e4 := broadcastTo_1b_ab_apply (a := 5000) (b := 40) x6 broadcasts_S1x40_S5000x40 p q
  unfold k4_pay1
  simp only [shapeCast_self]
  exact congrArg₂ (· + ·) (congrArg₂ (· + ·) (congrArg₂ (· + ·) e1 e2) e3) e4

/-- Entry (p, q) of point t's block of result window 7 sits at (5000 t + p, q) of its array. -/
theorem out7_emb (t : Fin cfg4.N) (p : Fin 5000) (q : Fin 40) (i : Fin 50000) (hi : i.val = 5000 * t.val + p.val) :
    ((cfg4.win 7).blk t).view.emb (ix2 p q) = (ix2 i q : S50000x40.Idx) := by
  obtain ⟨e0, e1⟩ := rows_w7 t
  funext a
  apply Fin.ext
  match a with
  | ⟨0, _⟩ => show win4_7.index t (0 : Fin 2) * 5000 + 1 * p.val = i.val; rw [e0, hi]; omega
  | ⟨1, _⟩ => show win4_7.index t (1 : Fin 2) * 40 + 1 * q.val = q.val; rw [e1]; omega

/-- An index of the array is in point t's block iff each coordinate is in the block's range on its axis. -/
theorem mem_blk7 (t : Fin cfg4.N) (i : S50000x40.Idx) :
    i ∈ ((cfg4.win 7).blk t).view.set ↔ ∀ a : Fin 2, win4_7.index t a * S5000x40.size a ≤ (i a).val ∧ (i a).val < win4_7.index t a * S5000x40.size a + S5000x40.size a := by
  show i ∈ ((View.whole main_v55).slice (win4_7.rect t)).set ↔ _
  rw [View.set_slice_whole, Rect.mem_set_unit]
  exact Iff.rfl

/-- Every block of 5000 rows is some point's. -/
theorem onto7 : ∀ (b : Fin 10), ∃ t : Fin cfg4.N, win4_7.index t = ![b.val, 0] :=
  (by decide +kernel : ∀ (b : Fin 10), ∃ t : Fin grid4.N, win4_7.index t = ![b.val, 0])

/-- Row i is in the block of point i / 5000: the ten blocks cover the array. -/
theorem cover7 (i : S50000x40.Idx) : ∃ t : Fin cfg4.N, (cfg4.win 7).flush t = true ∧ i ∈ ((cfg4.win 7).blk t).view.set := by
  have hi0 : (i 0).val < 50000 := (i 0).isLt
  have hi1 : (i 1).val < 40 := (i 1).isLt
  obtain ⟨t, ht⟩ := onto7 ⟨(i 0).val / 5000, by omega⟩
  have q0 : win4_7.index t (0 : Fin 2) = (i 0).val / 5000 := congrFun ht 0
  have q1 : win4_7.index t (1 : Fin 2) = 0 := congrFun ht 1
  refine ⟨t, flush4_7 t, ?_⟩
  rw [mem_blk7]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 40 ≤ (i 1).val ∧ (i 1).val < win4_7.index t (1 : Fin 2) * 40 + 40; omega

/-- What point t writes back is block t of `headRows` of the arrays as the region finds them. -/
theorem flushed_eq (c : Dev nD) (t : Fin cfg4.N) :
    (dat4 V c).flushed 7 t = ((cfg4.win 7).blk t).view.read (Elt Ideal)
      (headRows (V c main_v20_0) (V c main_v35_0) (V c main_v50) (V c main_v51) (V c main_v52) (V c main_v53) (V c main_v54)) := by
  show (cfg4.win 7).cut (grid4.coords t) ((dat4 V c).after 7 t) = _
  rw [after4_7]
  unfold out4_7
  rw [View.canon_unit_zero hz]
  simp only [View.ld_unit_zero (S := S5000x64) hz, View.ld_unit_zero (S := S64x40) hz, View.ld_unit_zero (S := S1x40) hz]
  refine funext fun (j : S5000x40.Idx) => ?_
  obtain ⟨p, q, rfl⟩ : ∃ (p : Fin 5000) (q : Fin 40), j = ix2 p q := ⟨j 0, j 1, eq_ix2 j⟩
  have ht := point_lt t
  have hp := p.isLt
  let i : Fin 50000 := ⟨5000 * t.val + p.val, by omega⟩
  show k4_pay1 (iblk4 V c 0 t) (iblk4 V c 1 t) (iblk4 V c 2 t) (iblk4 V c 3 t) (iblk4 V c 4 t) (iblk4 V c 5 t) (iblk4 V c 6 t) (ix2 p q)
    = headRows (V c main_v20_0) (V c main_v35_0) (V c main_v50) (V c main_v51) (V c main_v52) (V c main_v53) (V c main_v54)
        (((cfg4.win 7).blk t).view.emb (ix2 p q))
  rw [head_pay_apply, out7_emb t p q i rfl, headRows_apply]
  simp only [fun k => first_apply V c t p k i rfl, fun k => second_apply V c t p k i rfl, fun k => third_apply V c t p k i rfl,
    wa_apply V c t, wb_apply V c t, wc_apply V c t, brow_apply V c t]

/-- After the region the result array is `headRows` of the arrays as the region found them. -/
theorem final (c : Dev nD) :
    (dat4 V c).arrAt 7 cfg4.N
      = headRows (V c main_v20_0) (V c main_v35_0) (V c main_v50) (V c main_v51) (V c main_v52) (V c main_v53) (V c main_v54) :=
  (dat4 V c).arrAt_eq_of_cover 7 _ (fun t _ => flushed_eq V c t) cover7

end Cert.KernelIdeal.Region4

end
-- ==== Proof.Chain.lean ====
/-
  The idealized kernel's result array as the network of its argument arrays.

  The buffer contents are followed through the program, boundary by boundary.  The first host stretch cuts the edge
  array into the source ids and the destination ids and lays the edge weights as a column.  Then three times: a
  region leaves a table of node rows (the features, or the previous hidden state, times a weight matrix), the next
  host stretch gathers the table's rows at the edges' sources, scales them by the edge weights and adds them up at
  the edges' destinations, and the next region adds the bias and takes the larger of zero and that — the hidden
  state — (and, in the same region, the next table).  A buffer no operation of a stretch writes and no window of a
  region covers keeps its contents.  The last stretch cuts the output matrix [192, 40] into three [64, 40] matrices
  and lays the output bias as a row; the last region adds the three hidden states' products with them and the bias.

  Read at an index these are the reference's own operations: gathering rows of a narrowed table and widening them is
  gathering rows of the table, a vector reshaped to one row is the vector laid along a new leading axis, and the sum
  over 192 joined features is the sum of the three sums of 64.
-/
import proofs.«141563_j14697378087200_2_alg».proof.Proof.Patched.KernelIdeal.Frame
import proofs.«141563_j14697378087200_2_alg».proof.Proof.JKNetReads
import proofs.«141563_j14697378087200_2_alg».proof.Proof.Region0
import proofs.«141563_j14697378087200_2_alg».proof.Proof.Region1
import proofs.«141563_j14697378087200_2_alg».proof.Proof.Region2
import proofs.«141563_j14697378087200_2_alg».proof.Proof.Region3
import proofs.«141563_j14697378087200_2_alg».proof.Proof.Region4
import Idealize.ShloMosaic.Lib.StableHlo.Run
import Idealize.ShloMosaic.Lib.ValueLayout

set_option maxRecDepth 16384

noncomputable section

open scoped BigOperators

namespace Cert.KernelIdeal.Chain

open Cert.KernelIdeal Cert.KernelIdeal.Gen Cert.KernelIdeal.GenP Idealize.ShloMosaic Idealize.ShloMosaic.TcCoe Idealize.SL.Sem
open Idealize.ShloMosaic.ValueIdx Idealize.ShloMosaic.StableHlo

/-! ## The host stretches' operations as functions -/

/-- The edges' source ids: row 0 of the edge array. -/
def srcIds (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000

/-- The edges' destination ids: row 1 of the edge array. -/
def dstIds (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- The edge weights as a column [800000, 1]. -/
def wCol (x2 : (⟨S800000, .f32⟩ : BufTy).Contents (Elt Ideal)) : (⟨S800000x1, .f32⟩ : BufTy).Contents (Elt Ideal) :=
  broadcastInDim S800000x1 ![0] bcast_S800000_S800000x1_0 x2

/-- A bias vector [64] reshaped to one row [1, 64]. -/
def biasRow (b : (⟨S64, .f32⟩ : BufTy).Contents (Elt Ideal)) : (⟨S1x64, .f32⟩ : BufTy).Contents (Elt Ideal) :=
  shapeCast S1x64 b shapeCasts_S64_S1x64

/-- One message-passing stretch on a table in the shorter float format: gather the rows at the sources (a negative
    id counted from the end), widen, scale by the weights, add up at the destinations from zero. -/
def edgeSumK (v1 v3 : (⟨S800000, .i32⟩ : BufTy).Contents (Elt Ideal)) (v4 : (⟨S800000x1, .f32⟩ : BufTy).Contents (Elt Ideal)) (T : (⟨S50000x64, .bf16⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 v3)
    (mulf (F := Ideal) (extf (F := Ideal) .f32 (Host.gather gather_S50000x64_S800000x1_S800000x64_1_0_n_n_0_1_164 T
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1))) bitsLt_bf16_f32)
      (broadcastInDim S800000x64 ![0, 1] bcast_S800000x1_S800000x64_0_1 v4))

variable (m : (ℓ : Loc nD τ sig) → Buf (Elt Ideal) ℓ) (ρ : Dev nD → PrngReg) (c : Dev nD)

/-! ## The contents the program passes through, named -/

/-- The first table. -/
def tab1 : (⟨S50000x64, .f32⟩ : BufTy).Contents (Elt Ideal) := Cert.JKNet.table1 (m ((c : Thread nD τ).loc main_arg0)) (m ((c : Thread nD τ).loc main_arg3))
/-- The first edge sum. -/
def sum1 : (⟨S50000x64, .f32⟩ : BufTy).Contents (Elt Ideal) := edgeSumK (srcIds (m ((c : Thread nD τ).loc main_arg1))) (dstIds (m ((c : Thread nD τ).loc main_arg1))) (wCol (m ((c : Thread nD τ).loc main_arg2))) (tab1 m c)
/-- The first hidden state. -/
def hid1 : (⟨S50000x64, .f32⟩ : BufTy).Contents (Elt Ideal) := Cert.JKNet.biasReluRow (sum1 m c) (biasRow (m ((c : Thread nD τ).loc main_arg4)))
/-- The second table. -/
def tab2 : (⟨S50000x64, .f32⟩ : BufTy).Contents (Elt Ideal) := Cert.JKNet.table (hid1 m c) (m ((c : Thread nD τ).loc main_arg5))
/-- The second edge sum. -/
def sum2 : (⟨S50000x64, .f32⟩ : BufTy).Contents (Elt Ideal) := edgeSumK (srcIds (m ((c : Thread nD τ).loc main_arg1))) (dstIds (m ((c : Thread nD τ).loc main_arg1))) (wCol (m ((c : Thread nD τ).loc main_arg2))) (tab2 m c)
/-- The second hidden state. -/
def hid2 : (⟨S50000x64, .f32⟩ : BufTy).Contents (Elt Ideal) := Cert.JKNet.biasReluRow (sum2 m c) (biasRow (m ((c : Thread nD τ).loc main_arg6)))
/-- The third table. -/
def tab3 : (⟨S50000x64, .f32⟩ : BufTy).Contents (Elt Ideal) := Cert.JKNet.table (hid2 m c) (m ((c : Thread nD τ).loc main_arg7))
/-- The third edge sum. -/
def sum3 : (⟨S50000x64, .f32⟩ : BufTy).Contents (Elt Ideal) := edgeSumK (srcIds (m ((c : Thread nD τ).loc main_arg1))) (dstIds (m ((c : Thread nD τ).loc main_arg1))) (wCol (m ((c : Thread nD τ).loc main_arg2))) (tab3 m c)
/-- The third hidden state. -/
def hid3 : (⟨S50000x64, .f32⟩ : BufTy).Contents (Elt Ideal) := Cert.JKNet.biasReluRow (sum3 m c) (biasRow (m ((c : Thread nD τ).loc main_arg8)))

/-! ## The buffers' contents at each boundary (`atN_b`: buffer b at the N-th boundary) -/

theorem at1_v1 : W1 m ρ c (Proc.devRef .tc main_v1) = (srcIds (m ((c : Thread nD τ).loc main_arg1))) := by
  show StableHlo.after hostOps0 (W0 m ρ c) _ = _
  dsimp only [hostOps0]
  after_results
  try rfl

theorem at1_v3 : W1 m ρ c (Proc.devRef .tc main_v3) = (dstIds (m ((c : Thread nD τ).loc main_arg1))) := by
  show StableHlo.after hostOps0 (W0 m ρ c) _ = _
  dsimp only [hostOps0]
  after_results
  try rfl

theorem at1_v4 : W1 m ρ c (Proc.devRef .tc main_v4) = (wCol (m ((c : Thread nD τ).loc main_arg2))) := by
  show StableHlo.after hostOps0 (W0 m ρ c) _ = _
  dsimp only [hostOps0]
  after_results
  try rfl

theorem at1_arg0 : W1 m ρ c (Proc.devRef .tc main_arg0) = (m ((c : Thread nD τ).loc main_arg0)) := by
  show StableHlo.after hostOps0 (W0 m ρ c) _ = _
  dsimp only [hostOps0]
  after_results
  try rfl

theorem at1_arg3 : W1 m ρ c (Proc.devRef .tc main_arg3) = (m ((c : Thread nD τ).loc main_arg3)) := by
  show StableHlo.after hostOps0 (W0 m ρ c) _ = _
  dsimp only [hostOps0]
  after_results
  try rfl

theorem at1_arg4 : W1 m ρ c (Proc.devRef .tc main_arg4) = (m ((c : Thread nD τ).loc main_arg4)) := by
  show StableHlo.after hostOps0 (W0 m ρ c) _ = _
  dsimp only [hostOps0]
  after_results
  try rfl

theorem at1_arg5 : W1 m ρ c (Proc.devRef .tc main_arg5) = (m ((c : Thread nD τ).loc main_arg5)) := by
  show StableHlo.after hostOps0 (W0 m ρ c) _ = _
  dsimp only [hostOps0]
  after_results
  try rfl

theorem at1_arg6 : W1 m ρ c (Proc.devRef .tc main_arg6) = (m ((c : Thread nD τ).loc main_arg6)) := by
  show StableHlo.after hostOps0 (W0 m ρ c) _ = _
  dsimp only [hostOps0]
  after_results
  try rfl

theorem at1_arg7 : W1 m ρ c (Proc.devRef .tc main_arg7) = (m ((c : Thread nD τ).loc main_arg7)) := by
  show StableHlo.after hostOps0 (W0 m ρ c) _ = _
  dsimp only [hostOps0]
  after_results
  try rfl

theorem at1_arg8 : W1 m ρ c (Proc.devRef .tc main_arg8) = (m ((c : Thread nD τ).loc main_arg8)) := by
  show StableHlo.after hostOps0 (W0 m ρ c) _ = _
  dsimp only [hostOps0]
  after_results
  try rfl

theorem at1_arg9 : W1 m ρ c (Proc.devRef .tc main_arg9) = (m ((c : Thread nD τ).loc main_arg9)) := by
  show StableHlo.after hostOps0 (W0 m ρ c) _ = _
  dsimp only [hostOps0]
  after_results
  try rfl

theorem at1_arg10 : W1 m ρ c (Proc.devRef .tc main_arg10) = (m ((c : Thread nD τ).loc main_arg10)) := by
  show StableHlo.after hostOps0 (W0 m ρ c) _ = _
  dsimp only [hostOps0]
  after_results
  try rfl

theorem at2_v1 : W2 m ρ c (Proc.devRef .tc main_v1) = (srcIds (m ((c : Thread nD τ).loc main_arg1))) := (W2_of_ne m ρ c main_v1 (by decide)).trans (at1_v1 m ρ c)

theorem at2_v3 : W2 m ρ c (Proc.devRef .tc main_v3) = (dstIds (m ((c : Thread nD τ).loc main_arg1))) := (W2_of_ne m ρ c main_v3 (by decide)).trans (at1_v3 m ρ c)

theorem at2_v4 : W2 m ρ c (Proc.devRef .tc main_v4) = (wCol (m ((c : Thread nD τ).loc main_arg2))) := (W2_of_ne m ρ c main_v4 (by decide)).trans (at1_v4 m ρ c)

theorem at2_arg4 : W2 m ρ c (Proc.devRef .tc main_arg4) = (m ((c : Thread nD τ).loc main_arg4)) := (W2_of_ne m ρ c main_arg4 (by decide)).trans (at1_arg4 m ρ c)

theorem at2_arg5 : W2 m ρ c (Proc.devRef .tc main_arg5) = (m ((c : Thread nD τ).loc main_arg5)) := (W2_of_ne m ρ c main_arg5 (by decide)).trans (at1_arg5 m ρ c)

theorem at2_arg6 : W2 m ρ c (Proc.devRef .tc main_arg6) = (m ((c : Thread nD τ).loc main_arg6)) := (W2_of_ne m ρ c main_arg6 (by decide)).trans (at1_arg6 m ρ c)

theorem at2_arg7 : W2 m ρ c (Proc.devRef .tc main_arg7) = (m ((c : Thread nD τ).loc main_arg7)) := (W2_of_ne m ρ c main_arg7 (by decide)).trans (at1_arg7 m ρ c)

theorem at2_arg8 : W2 m ρ c (Proc.devRef .tc main_arg8) = (m ((c : Thread nD τ).loc main_arg8)) := (W2_of_ne m ρ c main_arg8 (by decide)).trans (at1_arg8 m ρ c)

theorem at2_arg9 : W2 m ρ c (Proc.devRef .tc main_arg9) = (m ((c : Thread nD τ).loc main_arg9)) := (W2_of_ne m ρ c main_arg9 (by decide)).trans (at1_arg9 m ρ c)

theorem at2_arg10 : W2 m ρ c (Proc.devRef .tc main_arg10) = (m ((c : Thread nD τ).loc main_arg10)) := (W2_of_ne m ρ c main_arg10 (by decide)).trans (at1_arg10 m ρ c)

theorem at2_v5 : W2 m ρ c (Proc.devRef .tc main_v5) = (tab1 m c) := by
  refine (W2_arr m ρ c 2).trans ?_
  rw [Cert.KernelIdeal.Region0.final (V1 m ρ) c]
  show Cert.KernelIdeal.Region0.prod (W1 m ρ c (Proc.devRef .tc main_arg0)) (W1 m ρ c (Proc.devRef .tc main_arg3)) = _
  rw [at1_arg0, at1_arg3]
  try rfl

theorem at3_v1 : W3 m ρ c (Proc.devRef .tc main_v1) = (srcIds (m ((c : Thread nD τ).loc main_arg1))) := by
  show StableHlo.after hostOps1 (W2 m ρ c) _ = _
  dsimp only [hostOps1]
  after_results
  exact at2_v1 m ρ c

theorem at3_v3 : W3 m ρ c (Proc.devRef .tc main_v3) = (dstIds (m ((c : Thread nD τ).loc main_arg1))) := by
  show StableHlo.after hostOps1 (W2 m ρ c) _ = _
  dsimp only [hostOps1]
  after_results
  exact at2_v3 m ρ c

theorem at3_v4 : W3 m ρ c (Proc.devRef .tc main_v4) = (wCol (m ((c : Thread nD τ).loc main_arg2))) := by
  show StableHlo.after hostOps1 (W2 m ρ c) _ = _
  dsimp only [hostOps1]
  after_results
  exact at2_v4 m ρ c

theorem at3_arg5 : W3 m ρ c (Proc.devRef .tc main_arg5) = (m ((c : Thread nD τ).loc main_arg5)) := by
  show StableHlo.after hostOps1 (W2 m ρ c) _ = _
  dsimp only [hostOps1]
  after_results
  exact at2_arg5 m ρ c

theorem at3_arg6 : W3 m ρ c (Proc.devRef .tc main_arg6) = (m ((c : Thread nD τ).loc main_arg6)) := by
  show StableHlo.after hostOps1 (W2 m ρ c) _ = _
  dsimp only [hostOps1]
  after_results
  exact at2_arg6 m ρ c

theorem at3_arg7 : W3 m ρ c (Proc.devRef .tc main_arg7) = (m ((c : Thread nD τ).loc main_arg7)) := by
  show StableHlo.after hostOps1 (W2 m ρ c) _ = _
  dsimp only [hostOps1]
  after_results
  exact at2_arg7 m ρ c

theorem at3_arg8 : W3 m ρ c (Proc.devRef .tc main_arg8) = (m ((c : Thread nD τ).loc main_arg8)) := by
  show StableHlo.after hostOps1 (W2 m ρ c) _ = _
  dsimp only [hostOps1]
  after_results
  exact at2_arg8 m ρ c

theorem at3_arg9 : W3 m ρ c (Proc.devRef .tc main_arg9) = (m ((c : Thread nD τ).loc main_arg9)) := by
  show StableHlo.after hostOps1 (W2 m ρ c) _ = _
  dsimp only [hostOps1]
  after_results
  exact at2_arg9 m ρ c

theorem at3_arg10 : W3 m ρ c (Proc.devRef .tc main_arg10) = (m ((c : Thread nD τ).loc main_arg10)) := by
  show StableHlo.after hostOps1 (W2 m ρ c) _ = _
  dsimp only [hostOps1]
  after_results
  exact at2_arg10 m ρ c

set_option maxHeartbeats 1600000 in
theorem at3_v18 : W3 m ρ c (Proc.devRef .tc main_v18) = (sum1 m c) := by
  show StableHlo.after hostOps1 (W2 m ρ c) _ = _
  dsimp only [hostOps1]
  after_results_simp
  rw [at2_v1 m ρ c, at2_v3 m ρ c, at2_v4 m ρ c, at2_v5 m ρ c]
  try rfl

theorem at3_v19 : W3 m ρ c (Proc.devRef .tc main_v19) = (biasRow (m ((c : Thread nD τ).loc main_arg4))) := by
  show StableHlo.after hostOps1 (W2 m ρ c) _ = _
  dsimp only [hostOps1]
  after_results
  rw [at2_arg4 m ρ c]
  try rfl

theorem at4_v1 : W4 m ρ c (Proc.devRef .tc main_v1) = (srcIds (m ((c : Thread nD τ).loc main_arg1))) := (W4_of_ne m ρ c main_v1 (by decide)).trans (at3_v1 m ρ c)

theorem at4_v3 : W4 m ρ c (Proc.devRef .tc main_v3) = (dstIds (m ((c : Thread nD τ).loc main_arg1))) := (W4_of_ne m ρ c main_v3 (by decide)).trans (at3_v3 m ρ c)

theorem at4_v4 : W4 m ρ c (Proc.devRef .tc main_v4) = (wCol (m ((c : Thread nD τ).loc main_arg2))) := (W4_of_ne m ρ c main_v4 (by decide)).trans (at3_v4 m ρ c)

theorem at4_arg6 : W4 m ρ c (Proc.devRef .tc main_arg6) = (m ((c : Thread nD τ).loc main_arg6)) := (W4_of_ne m ρ c main_arg6 (by decide)).trans (at3_arg6 m ρ c)

theorem at4_arg7 : W4 m ρ c (Proc.devRef .tc main_arg7) = (m ((c : Thread nD τ).loc main_arg7)) := (W4_of_ne m ρ c main_arg7 (by decide)).trans (at3_arg7 m ρ c)

theorem at4_arg8 : W4 m ρ c (Proc.devRef .tc main_arg8) = (m ((c : Thread nD τ).loc main_arg8)) := (W4_of_ne m ρ c main_arg8 (by decide)).trans (at3_arg8 m ρ c)

theorem at4_arg9 : W4 m ρ c (Proc.devRef .tc main_arg9) = (m ((c : Thread nD τ).loc main_arg9)) := (W4_of_ne m ρ c main_arg9 (by decide)).trans (at3_arg9 m ρ c)

theorem at4_arg10 : W4 m ρ c (Proc.devRef .tc main_arg10) = (m ((c : Thread nD τ).loc main_arg10)) := (W4_of_ne m ρ c main_arg10 (by decide)).trans (at3_arg10 m ρ c)

theorem at4_v20_0 : W4 m ρ c (Proc.devRef .tc main_v20_0) = (hid1 m c) := by
  refine (W4_arr m ρ c 3).trans ?_
  rw [Cert.KernelIdeal.Region1.final_hidden (V3 m ρ) c]
  show _ = _
  simp only [show V3 m ρ c main_v18 = _ from at3_v18 m ρ c, show V3 m ρ c main_v19 = _ from at3_v19 m ρ c]
  try rfl

theorem at4_v20_1 : W4 m ρ c (Proc.devRef .tc main_v20_1) = (tab2 m c) := by
  refine (W4_arr m ρ c 4).trans ?_
  rw [Cert.KernelIdeal.Region1.final_table (V3 m ρ) c]
  show _ = _
  simp only [show V3 m ρ c main_v18 = _ from at3_v18 m ρ c, show V3 m ρ c main_v19 = _ from at3_v19 m ρ c, show V3 m ρ c main_arg5 = _ from at3_arg5 m ρ c]
  try rfl

theorem at5_v1 : W5 m ρ c (Proc.devRef .tc main_v1) = (srcIds (m ((c : Thread nD τ).loc main_arg1))) := by
  show StableHlo.after hostOps2 (W4 m ρ c) _ = _
  dsimp only [hostOps2]
  after_results
  exact at4_v1 m ρ c

theorem at5_v3 : W5 m ρ c (Proc.devRef .tc main_v3) = (dstIds (m ((c : Thread nD τ).loc main_arg1))) := by
  show StableHlo.after hostOps2 (W4 m ρ c) _ = _
  dsimp only [hostOps2]
  after_results
  exact at4_v3 m ρ c

theorem at5_v4 : W5 m ρ c (Proc.devRef .tc main_v4) = (wCol (m ((c : Thread nD τ).loc main_arg2))) := by
  show StableHlo.after hostOps2 (W4 m ρ c) _ = _
  dsimp only [hostOps2]
  after_results
  exact at4_v4 m ρ c

theorem at5_arg7 : W5 m ρ c (Proc.devRef .tc main_arg7) = (m ((c : Thread nD τ).loc main_arg7)) := by
  show StableHlo.after hostOps2 (W4 m ρ c) _ = _
  dsimp only [hostOps2]
  after_results
  exact at4_arg7 m ρ c

theorem at5_arg8 : W5 m ρ c (Proc.devRef .tc main_arg8) = (m ((c : Thread nD τ).loc main_arg8)) := by
  show StableHlo.after hostOps2 (W4 m ρ c) _ = _
  dsimp only [hostOps2]
  after_results
  exact at4_arg8 m ρ c

theorem at5_arg9 : W5 m ρ c (Proc.devRef .tc main_arg9) = (m ((c : Thread nD τ).loc main_arg9)) := by
  show StableHlo.after hostOps2 (W4 m ρ c) _ = _
  dsimp only [hostOps2]
  after_results
  exact at4_arg9 m ρ c

theorem at5_arg10 : W5 m ρ c (Proc.devRef .tc main_arg10) = (m ((c : Thread nD τ).loc main_arg10)) := by
  show StableHlo.after hostOps2 (W4 m ρ c) _ = _
  dsimp only [hostOps2]
  after_results
  exact at4_arg10 m ρ c

theorem at5_v20_0 : W5 m ρ c (Proc.devRef .tc main_v20_0) = (hid1 m c) := by
  show StableHlo.after hostOps2 (W4 m ρ c) _ = _
  dsimp only [hostOps2]
  after_results
  exact at4_v20_0 m ρ c

set_option maxHeartbeats 1600000 in
theorem at5_v33 : W5 m ρ c (Proc.devRef .tc main_v33) = (sum2 m c) := by
  show StableHlo.after hostOps2 (W4 m ρ c) _ = _
  dsimp only [hostOps2]
  after_results_simp
  rw [at4_v1 m ρ c, at4_v3 m ρ c, at4_v4 m ρ c, at4_v20_1 m ρ c]
  try rfl

theorem at5_v34 : W5 m ρ c (Proc.devRef .tc main_v34) = (biasRow (m ((c : Thread nD τ).loc main_arg6))) := by
  show StableHlo.after hostOps2 (W4 m ρ c) _ = _
  dsimp only [hostOps2]
  after_results
  rw [at4_arg6 m ρ c]
  try rfl

theorem at6_v1 : W6 m ρ c (Proc.devRef .tc main_v1) = (srcIds (m ((c : Thread nD τ).loc main_arg1))) := (W6_of_ne m ρ c main_v1 (by decide)).trans (at5_v1 m ρ c)

theorem at6_v3 : W6 m ρ c (Proc.devRef .tc main_v3) = (dstIds (m ((c : Thread nD τ).loc main_arg1))) := (W6_of_ne m ρ c main_v3 (by decide)).trans (at5_v3 m ρ c)

theorem at6_v4 : W6 m ρ c (Proc.devRef .tc main_v4) = (wCol (m ((c : Thread nD τ).loc main_arg2))) := (W6_of_ne m ρ c main_v4 (by decide)).trans (at5_v4 m ρ c)

theorem at6_arg8 : W6 m ρ c (Proc.devRef .tc main_arg8) = (m ((c : Thread nD τ).loc main_arg8)) := (W6_of_ne m ρ c main_arg8 (by decide)).trans (at5_arg8 m ρ c)

theorem at6_arg9 : W6 m ρ c (Proc.devRef .tc main_arg9) = (m ((c : Thread nD τ).loc main_arg9)) := (W6_of_ne m ρ c main_arg9 (by decide)).trans (at5_arg9 m ρ c)

theorem at6_arg10 : W6 m ρ c (Proc.devRef .tc main_arg10) = (m ((c : Thread nD τ).loc main_arg10)) := (W6_of_ne m ρ c main_arg10 (by decide)).trans (at5_arg10 m ρ c)

theorem at6_v20_0 : W6 m ρ c (Proc.devRef .tc main_v20_0) = (hid1 m c) := (W6_of_ne m ρ c main_v20_0 (by decide)).trans (at5_v20_0 m ρ c)

theorem at6_v35_0 : W6 m ρ c (Proc.devRef .tc main_v35_0) = (hid2 m c) := by
  refine (W6_arr m ρ c 3).trans ?_
  rw [Cert.KernelIdeal.Region2.final_hidden (V5 m ρ) c]
  show _ = _
  simp only [show V5 m ρ c main_v33 = _ from at5_v33 m ρ c, show V5 m ρ c main_v34 = _ from at5_v34 m ρ c]
  try rfl

theorem at6_v35_1 : W6 m ρ c (Proc.devRef .tc main_v35_1) = (tab3 m c) := by
  refine (W6_arr m ρ c 4).trans ?_
  rw [Cert.KernelIdeal.Region2.final_table (V5 m ρ) c]
  show _ = _
  simp only [show V5 m ρ c main_v33 = _ from at5_v33 m ρ c, show V5 m ρ c main_v34 = _ from at5_v34 m ρ c, show V5 m ρ c main_arg7 = _ from at5_arg7 m ρ c]
  try rfl

theorem at7_arg9 : W7 m ρ c (Proc.devRef .tc main_arg9) = (m ((c : Thread nD τ).loc main_arg9)) := by
  show StableHlo.after hostOps3 (W6 m ρ c) _ = _
  dsimp only [hostOps3]
  after_results
  exact at6_arg9 m ρ c

theorem at7_arg10 : W7 m ρ c (Proc.devRef .tc main_arg10) = (m ((c : Thread nD τ).loc main_arg10)) := by
  show StableHlo.after hostOps3 (W6 m ρ c) _ = _
  dsimp only [hostOps3]
  after_results
  exact at6_arg10 m ρ c

theorem at7_v20_0 : W7 m ρ c (Proc.devRef .tc main_v20_0) = (hid1 m c) := by
  show StableHlo.after hostOps3 (W6 m ρ c) _ = _
  dsimp only [hostOps3]
  after_results
  exact at6_v20_0 m ρ c

theorem at7_v35_0 : W7 m ρ c (Proc.devRef .tc main_v35_0) = (hid2 m c) := by
  show StableHlo.after hostOps3 (W6 m ρ c) _ = _
  dsimp only [hostOps3]
  after_results
  exact at6_v35_0 m ρ c

set_option maxHeartbeats 1600000 in
theorem at7_v48 : W7 m ρ c (Proc.devRef .tc main_v48) = (sum3 m c) := by
  show StableHlo.after hostOps3 (W6 m ρ c) _ = _
  dsimp only [hostOps3]
  after_results_simp
  rw [at6_v1 m ρ c, at6_v3 m ρ c, at6_v4 m ρ c, at6_v35_1 m ρ c]
  try rfl

theorem at7_v49 : W7 m ρ c (Proc.devRef .tc main_v49) = (biasRow (m ((c : Thread nD τ).loc main_arg8))) := by
  show StableHlo.after hostOps3 (W6 m ρ c) _ = _
  dsimp only [hostOps3]
  after_results
  rw [at6_arg8 m ρ c]
  try rfl

theorem at8_arg9 : W8 m ρ c (Proc.devRef .tc main_arg9) = (m ((c : Thread nD τ).loc main_arg9)) := (W8_of_ne m ρ c main_arg9 (by decide)).trans (at7_arg9 m ρ c)

theorem at8_arg10 : W8 m ρ c (Proc.devRef .tc main_arg10) = (m ((c : Thread nD τ).loc main_arg10)) := (W8_of_ne m ρ c main_arg10 (by decide)).trans (at7_arg10 m ρ c)

theorem at8_v20_0 : W8 m ρ c (Proc.devRef .tc main_v20_0) = (hid1 m c) := (W8_of_ne m ρ c main_v20_0 (by decide)).trans (at7_v20_0 m ρ c)

theorem at8_v35_0 : W8 m ρ c (Proc.devRef .tc main_v35_0) = (hid2 m c) := (W8_of_ne m ρ c main_v35_0 (by decide)).trans (at7_v35_0 m ρ c)

theorem at8_v50 : W8 m ρ c (Proc.devRef .tc main_v50) = (hid3 m c) := by
  refine (W8_arr m ρ c 2).trans ?_
  rw [Cert.KernelIdeal.Region3.final_hidden (V7 m ρ) c]
  show _ = _
  simp only [show V7 m ρ c main_v48 = _ from at7_v48 m ρ c, show V7 m ρ c main_v49 = _ from at7_v49 m ρ c]
  try rfl

theorem at9_v20_0 : W9 m ρ c (Proc.devRef .tc main_v20_0) = (hid1 m c) := by
  show StableHlo.after hostOps4 (W8 m ρ c) _ = _
  dsimp only [hostOps4]
  after_results
  exact at8_v20_0 m ρ c

theorem at9_v35_0 : W9 m ρ c (Proc.devRef .tc main_v35_0) = (hid2 m c) := by
  show StableHlo.after hostOps4 (W8 m ρ c) _ = _
  dsimp only [hostOps4]
  after_results
  exact at8_v35_0 m ρ c

theorem at9_v50 : W9 m ρ c (Proc.devRef .tc main_v50) = (hid3 m c) := by
  show StableHlo.after hostOps4 (W8 m ρ c) _ = _
  dsimp only [hostOps4]
  after_results
  exact at8_v50 m ρ c

theorem at9_v51 : W9 m ρ c (Proc.devRef .tc main_v51) = (extractStridedSlice S64x40 ![0, 0] (m ((c : Thread nD τ).loc main_arg9)) slices_S192x40_S64x40_0_0) := by
  show StableHlo.after hostOps4 (W8 m ρ c) _ = _
  dsimp only [hostOps4]
  after_results
  rw [at8_arg9 m ρ c]
  try rfl

theorem at9_v52 : W9 m ρ c (Proc.devRef .tc main_v52) = (extractStridedSlice S64x40 ![64, 0] (m ((c : Thread nD τ).loc main_arg9)) slices_S192x40_S64x40_64_0) := by
  show StableHlo.after hostOps4 (W8 m ρ c) _ = _
  dsimp only [hostOps4]
  after_results
  rw [at8_arg9 m ρ c]
  try rfl

theorem at9_v53 : W9 m ρ c (Proc.devRef .tc main_v53) = (extractStridedSlice S64x40 ![128, 0] (m ((c : Thread nD τ).loc main_arg9)) slices_S192x40_S64x40_128_0) := by
  show StableHlo.after hostOps4 (W8 m ρ c) _ = _
  dsimp only [hostOps4]
  after_results
  rw [at8_arg9 m ρ c]
  try rfl

theorem at9_v54 : W9 m ρ c (Proc.devRef .tc main_v54) = (shapeCast S1x40 (m ((c : Thread nD τ).loc main_arg10)) shapeCasts_S40_S1x40) := by
  show StableHlo.after hostOps4 (W8 m ρ c) _ = _
  dsimp only [hostOps4]
  after_results
  rw [at8_arg10 m ρ c]
  try rfl

/-- The result array after the last region. -/
theorem at10_v55 : W10 m ρ c (Proc.devRef .tc main_v55)
    = Cert.KernelIdeal.Region4.headRows (hid1 m c) (hid2 m c) (hid3 m c) (extractStridedSlice S64x40 ![0, 0] (m ((c : Thread nD τ).loc main_arg9)) slices_S192x40_S64x40_0_0) (extractStridedSlice S64x40 ![64, 0] (m ((c : Thread nD τ).loc main_arg9)) slices_S192x40_S64x40_64_0) (extractStridedSlice S64x40 ![128, 0] (m ((c : Thread nD τ).loc main_arg9)) slices_S192x40_S64x40_128_0) (shapeCast S1x40 (m ((c : Thread nD τ).loc main_arg10)) shapeCasts_S40_S1x40) := by
  refine (W10_arr m ρ c 7).trans ?_
  rw [Cert.KernelIdeal.Region4.final (V9 m ρ) c]
  show _ = _
  simp only [show V9 m ρ c main_v20_0 = _ from at9_v20_0 m ρ c, show V9 m ρ c main_v35_0 = _ from at9_v35_0 m ρ c,
    show V9 m ρ c main_v50 = _ from at9_v50 m ρ c, show V9 m ρ c main_v51 = _ from at9_v51 m ρ c,
    show V9 m ρ c main_v52 = _ from at9_v52 m ρ c, show V9 m ρ c main_v53 = _ from at9_v53 m ρ c,
    show V9 m ρ c main_v54 = _ from at9_v54 m ρ c]

/-! ## The same functions in the reference's spelling -/

/-- Gathering rows of the narrowed table and widening them is gathering rows of the table: the stretch is the
    network's edge sum. -/
theorem edgeSumK_eq (x1 : (⟨S2x800000, .i32⟩ : BufTy).Contents (Elt Ideal)) (x2 : (⟨S800000, .f32⟩ : BufTy).Contents (Elt Ideal)) (T : (⟨S50000x64, .f32⟩ : BufTy).Contents (Elt Ideal)) :
    edgeSumK (srcIds x1) (dstIds x1) (wCol x2) T = Cert.JKNet.edgeSum x1 x2 T := rfl

theorem hid1_eq : hid1 m c = Cert.JKNet.hidden1 (m ((c : Thread nD τ).loc main_arg0)) (m ((c : Thread nD τ).loc main_arg1)) (m ((c : Thread nD τ).loc main_arg2)) (m ((c : Thread nD τ).loc main_arg3)) (m ((c : Thread nD τ).loc main_arg4)) := by
  unfold hid1 sum1 tab1 biasRow Cert.JKNet.hidden1 Cert.JKNet.biasRelu
  rw [edgeSumK_eq, Cert.JKNet.rowOf_eq]

theorem hid2_eq : hid2 m c = Cert.JKNet.hiddenNext (m ((c : Thread nD τ).loc main_arg1)) (m ((c : Thread nD τ).loc main_arg2)) (hid1 m c) (m ((c : Thread nD τ).loc main_arg5)) (m ((c : Thread nD τ).loc main_arg6)) := by
  unfold hid2 sum2 tab2 biasRow Cert.JKNet.hiddenNext Cert.JKNet.biasRelu
  rw [edgeSumK_eq, Cert.JKNet.rowOf_eq]

theorem hid3_eq : hid3 m c = Cert.JKNet.hiddenNext (m ((c : Thread nD τ).loc main_arg1)) (m ((c : Thread nD τ).loc main_arg2)) (hid2 m c) (m ((c : Thread nD τ).loc main_arg7)) (m ((c : Thread nD τ).loc main_arg8)) := by
  unfold hid3 sum3 tab3 biasRow Cert.JKNet.hiddenNext Cert.JKNet.biasRelu
  rw [edgeSumK_eq, Cert.JKNet.rowOf_eq]

/-- The three products against the three row ranges of the output matrix, plus the bias row, are the output layer on
    the joined hidden states. -/
theorem head_eq (h1 h2 h3 : (⟨S50000x64, .f32⟩ : BufTy).Contents (Elt Ideal)) (x9 : (⟨S192x40, .f32⟩ : BufTy).Contents (Elt Ideal)) (x10 : (⟨S40, .f32⟩ : BufTy).Contents (Elt Ideal)) :
    Cert.KernelIdeal.Region4.headRows h1 h2 h3 (extractStridedSlice S64x40 ![0, 0] x9 slices_S192x40_S64x40_0_0)
      (extractStridedSlice S64x40 ![64, 0] x9 slices_S192x40_S64x40_64_0)
      (extractStridedSlice S64x40 ![128, 0] x9 slices_S192x40_S64x40_128_0) (shapeCast S1x40 x10 shapeCasts_S40_S1x40)
      = Cert.JKNet.head h1 h2 h3 x9 x10 := by
  funext y
  obtain ⟨i, j, rfl⟩ : ∃ (i : Fin 50000) (j : Fin 40), y = ix2 i j := ⟨y 0, y 1, eq_ix2 y⟩
  rw [Cert.KernelIdeal.Region4.headRows_apply, Cert.JKNet.head_apply, shapeCast_a_1a_apply]
  simp only [slice2_axis0_eq, Nat.zero_add]

/-- The result array is the network of the argument arrays. -/
theorem result_eq : W10 m ρ c (Proc.devRef .tc main_v55)
    = Cert.JKNet.jkOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [at10_v55, head_eq, hid3_eq, hid2_eq, hid1_eq]
  try rfl

end Cert.KernelIdeal.Chain

end
-- ==== Proof.lean ====
/-
  The certificate of a three-layer graph network with a joined output layer.

  The kernel program computes, over 50000 nodes and 800000 weighted edges: three times a table of node rows (features
  or the previous hidden state times a weight matrix, in a Pallas region over ten row blocks), the edges' messages
  summed at their destinations (gather, scale, scatter-add on the host), bias and rectifier (a region again); and an
  output layer that adds the three hidden states' products with the three row ranges of the output matrix.  The
  reference computes the same tables by whole matrix products, the same message sums, and the output layer as one
  product of the joined hidden states [50000, 192] with the output matrix.

  On the extended reals the two agree entry by entry: a block of a matrix product is the product's rows (the same sum
  over the contracted index), a change of float format is the identity, so gathering rows of the narrowed table is
  gathering rows of the table, and a sum over 192 joined features is the sum of the three sums over 64 — which only
  regroups a finite sum, so the inputs need not be finite.  The idealization rewrote nothing (`preserves` is `True`).

  Modules: `JKNet` (the network as one function, and the reference's result as that function), `JKNetReads` (its
  operations at an index), `Region0` … `Region4` (each region's arrays after the region, as whole-array functions of
  the arrays it found), `RunValue` (the kernel's run with the result array named), `Chain` (the contents followed
  through the program, and the result array as the network of the arguments).
-/
import proofs.«141563_j14697378087200_2_alg».proof.Defs
import proofs.«141563_j14697378087200_2_alg».proof.Proof.Gen.Kernel
import proofs.«141563_j14697378087200_2_alg».proof.Proof.Gen.KernelIdeal
import proofs.«141563_j14697378087200_2_alg».proof.Proof.Gen.ReferenceIdeal
import proofs.«141563_j14697378087200_2_alg».proof.Proof.Gen.Pre_finite_inputs
import proofs.«141563_j14697378087200_2_alg».proof.Proof.Patched.Kernel.Frame
import proofs.«141563_j14697378087200_2_alg».proof.Proof.Patched.KernelIdeal.Frame
import proofs.«141563_j14697378087200_2_alg».proof.Proof.Gen.ReferenceIdeal.Run
import proofs.«141563_j14697378087200_2_alg».proof.Proof.Gen.ReferenceIdeal.Read
import proofs.«141563_j14697378087200_2_alg».proof.Proof.JKNet
import proofs.«141563_j14697378087200_2_alg».proof.Proof.RunValue
import proofs.«141563_j14697378087200_2_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.GenP.frame m ρ

/-- The idealized kernel runs and leaves its arguments as launched. -/
theorem frame_kernelIdeal : Cert.frame_KernelIdeal := fun m ρ _ => Cert.KernelIdeal.GenP.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the network of the arguments in their result arrays. -/
theorem algebraic : Cert.algebraic_KernelIdeal_ReferenceIdeal := by
  intro m ρ m' ρ' _ hagree
  refine ⟨fun c => Cert.JKNet.jkOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_eq m ρ c), (h c).2⟩)
      (Cert.KernelIdeal.RunValue.run_result (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v62_eq m' c)).trans ?_
    rw [Cert.JKNet.reference_is_jkOut]
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
